-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x64 : Shape := ⟨4, ![4, 16, 1024, 64]⟩
abbrev S4x16x64x1024 : Shape := ⟨4, ![4, 16, 64, 1024]⟩
abbrev S4x16x1024x1024 : Shape := ⟨4, ![4, 16, 1024, 1024]⟩
abbrev S1x1024x1024 : Shape := ⟨3, ![1, 1024, 1024]⟩
abbrev S4x1024 : Shape := ⟨2, ![4, 1024]⟩
abbrev S_ : Shape := ⟨0, ![]⟩

class Facts : Prop where
  bcast_S_S4x16x1024x64 : S_.BroadcastsInDim S4x16x1024x64 (![] : Fin 0 → Fin S4x16x1024x64.rank)
  reducesTo_S4x16x1024x64_S_d0_1_2_3 : S4x16x1024x64.ReducesTo [0, 1, 2, 3] S_
  h_S_ : 0 < S_.numel
  bcast_S_S4x16x64x1024 : S_.BroadcastsInDim S4x16x64x1024 (![] : Fin 0 → Fin S4x16x64x1024.rank)
  reducesTo_S4x16x64x1024_S_d0_1_2_3 : S4x16x64x1024.ReducesTo [0, 1, 2, 3] S_
  bcast_S_S4x16x1024x1024 : S_.BroadcastsInDim S4x16x1024x1024 (![] : Fin 0 → Fin S4x16x1024x1024.rank)
  reducesTo_S4x16x1024x1024_S_d0_1_2_3 : S4x16x1024x1024.ReducesTo [0, 1, 2, 3] S_
  bcast_S_S1x1024x1024 : S_.BroadcastsInDim S1x1024x1024 (![] : Fin 0 → Fin S1x1024x1024.rank)
  reducesTo_S1x1024x1024_S_d0_1_2 : S1x1024x1024.ReducesTo [0, 1, 2] S_
  reducesTo_S_S_d : S_.ReducesTo [] S_

variable [Facts]

def fn_part1 {F : FTy → Type} [FloatOps F] (main_arg4 : FVec F S1x1024x1024 .f32) (main_arg6 : FVec F S_ .f32) (main_v13 : IVec S_ 1) (main_v16 : IVec S4x16x1024x1024 1) : IVec S_ 1 :=
  let main_c_5 : IVec S_ 1 := constantI S_ 1 1#1
  let main_v17 : IVec S_ 1 := (fun x v => Host.reduce IntOp.andi x v reducesTo_S4x16x1024x1024_S_d0_1_2_3 h_S_) main_v16 main_c_5
  let main_v18 : IVec S_ 1 := andi main_v13 main_v17
  let main_v19 : FVec F S1x1024x1024 .f32 := Host.absf main_arg4
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S4x16x1024x64 .f32) (main_arg1 : FVec F S4x16x64x1024 .f32) (main_arg2 : FVec F S4x16x1024x64 .f32) (main_arg3 : FVec F S4x16x1024x1024 .f32) (main_arg4 : FVec F S1x1024x1024 .f32) (main_arg5 : IVec S4x1024 1) (main_arg6 : FVec F S_ .f32) : IVec S_ 1 :=
  let main_v0 : FVec F S4x16x1024x64 .f32 := Host.absf main_arg0
  let main_cst : FVec F S_ .f32 := constant S_ .f32 0x7F800000#32
  let main_v1 : FVec F S4x16x1024x64 .f32 := broadcastInDim S4x16x1024x64 ![] bcast_S_S4x16x1024x64 main_cst
  let main_v2 : IVec S4x16x1024x64 1 := cmpf .olt main_v0 main_v1
  let main_c : IVec S_ 1 := constantI S_ 1 1#1
  let main_v3 : IVec S_ 1 := (fun x v => Host.reduce IntOp.andi x v reducesTo_S4x16x1024x64_S_d0_1_2_3 h_S_) main_v2 main_c
  let main_v4 : FVec F S4x16x64x1024 .f32 := Host.absf main_arg1
  let main_cst_0 : FVec F S_ .f32 := constant S_ .f32 0x7F800000#32
  let main_v5 : FVec F S4x16x64x1024 .f32 := broadcastInDim S4x16x64x1024 ![] bcast_S_S4x16x64x1024 main_cst_0
  let main_v6 : IVec S4x16x64x1024 1 := cmpf .olt main_v4 main_v5
  let main_c_1 : IVec S_ 1 := constantI S_ 1 1#1
  let main_v7 : IVec S_ 1 := (fun x v => Host.reduce IntOp.andi x v reducesTo_S4x16x64x1024_S_d0_1_2_3 h_S_) main_v6 main_c_1
  let main_v8 : IVec S_ 1 := andi main_v3 main_v7
  let main_v9 : FVec F S4x16x1024x64 .f32 := Host.absf main_arg2
  let main_cst_2 : FVec F S_ .f32 := constant S_ .f32 0x7F800000#32
  let main_v10 : FVec F S4x16x1024x64 .f32 := broadcastInDim S4x16x1024x64 ![] bcast_S_S4x16x1024x64 main_cst_2
  let main_v11 : IVec S4x16x1024x64 1 := cmpf .olt main_v9 main_v10
  let main_c_3 : IVec S_ 1 := constantI S_ 1 1#1
  let main_v12 : IVec S_ 1 := (fun x v => Host.reduce IntOp.andi x v reducesTo_S4x16x1024x64_S_d0_1_2_3 h_S_) main_v11 main_c_3
  let main_v13 : IVec S_ 1 := andi main_v8 main_v12
  let main_v14 : FVec F S4x16x1024x1024 .f32 := Host.absf main_arg3
  let main_cst_4 : FVec F S_ .f32 := constant S_ .f32 0x7F800000#32
  let main_v15 : FVec F S4x16x1024x1024 .f32 := broadcastInDim S4x16x1024x1024 ![] bcast_S_S4x16x1024x1024 main_cst_4
  let main_v16 : IVec S4x16x1024x1024 1 := cmpf .olt main_v14 main_v15
  fn_part1 (F := F) main_arg4 main_arg6 main_v13 main_v16
-- ==== Kernel.lean ====
abbrev S4x16x1024x64 : Shape := ⟨4, ![4, 16, 1024, 64]⟩
abbrev S4x16x64x1024 : Shape := ⟨4, ![4, 16, 64, 1024]⟩
abbrev S4x16x1024x1024 : Shape := ⟨4, ![4, 16, 1024, 1024]⟩
abbrev S1x1024x1024 : Shape := ⟨3, ![1, 1024, 1024]⟩
abbrev S4x1024 : Shape := ⟨2, ![4, 1024]⟩
abbrev S_ : Shape := ⟨0, ![]⟩
abbrev S64x1024x64 : Shape := ⟨3, ![64, 1024, 64]⟩
abbrev S64x64x1024 : Shape := ⟨3, ![64, 64, 1024]⟩
abbrev S64x1024x1024 : Shape := ⟨3, ![64, 1024, 1024]⟩
abbrev S4x1x1024 : Shape := ⟨3, ![4, 1, 1024]⟩
abbrev S4x16x1024 : Shape := ⟨3, ![4, 16, 1024]⟩
abbrev S64x1x1024 : Shape := ⟨3, ![64, 1, 1024]⟩
abbrev S1x1 : Shape := ⟨2, ![1, 1]⟩
abbrev S1x512x64 : Shape := ⟨3, ![1, 512, 64]⟩
abbrev S1x64x1024 : Shape := ⟨3, ![1, 64, 1024]⟩
abbrev S1x1024x64 : Shape := ⟨3, ![1, 1024, 64]⟩
abbrev S1x512x1024 : Shape := ⟨3, ![1, 512, 1024]⟩
abbrev S1x1x1024 : Shape := ⟨3, ![1, 1, 1024]⟩
abbrev S512x64 : Shape := ⟨2, ![512, 64]⟩
abbrev S64x1024 : Shape := ⟨2, ![64, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x64 : Shape := ⟨2, ![1024, 64]⟩

abbrev nBuf : Space → Nat
  | .hbm => 27
  | .vmem => 19
  | .smem => 0
  | _ => 0

abbrev bufTy : (tb : Table) → Fin (tcTables nBuf tb) → BufTy
  | .hbm, ⟨0, _⟩ => ⟨S4x16x1024x64, .f32⟩
  | .hbm, ⟨1, _⟩ => ⟨S4x16x64x1024, .f32⟩
  | .hbm, ⟨2, _⟩ => ⟨S4x16x1024x64, .f32⟩
  | .hbm, ⟨3, _⟩ => ⟨S4x16x1024x1024, .f32⟩
  | .hbm, ⟨4, _⟩ => ⟨S1x1024x1024, .f32⟩
  | .hbm, ⟨5, _⟩ => ⟨S4x1024, .i1⟩
  | .hbm, ⟨6, _⟩ => ⟨S_, .f32⟩
  | .hbm, ⟨7, _⟩ => ⟨S64x1024x64, .f32⟩
  | .hbm, ⟨8, _⟩ => ⟨S64x64x1024, .f32⟩
  | .hbm, ⟨9, _⟩ => ⟨S64x1024x64, .f32⟩
  | .hbm, ⟨10, _⟩ => ⟨S64x1024x1024, .f32⟩
  | .hbm, ⟨11, _⟩ => ⟨S_, .f32⟩
  | .hbm, ⟨12, _⟩ => ⟨S_, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1x1024, .f32⟩
  | .hbm, ⟨18, _⟩ => ⟨S4x16x1024, .f32⟩
  | .hbm, ⟨19, _⟩ => ⟨S64x1x1024, .f32⟩
  | .hbm, ⟨20, _⟩ => ⟨S1x1, .f32⟩
  | .hbm, ⟨21, _⟩ => ⟨S64x1024x64, .f32⟩
  | .hbm, ⟨22, _⟩ => ⟨S64x1024x1024, .f32⟩
  | .hbm, ⟨23, _⟩ => ⟨S64x1024x1024, .f32⟩
  | .hbm, ⟨24, _⟩ => ⟨S4x16x1024x64, .f32⟩
  | .hbm, ⟨25, _⟩ => ⟨S4x16x1024x1024, .f32⟩
  | .hbm, ⟨26, _⟩ => ⟨S4x16x1024x1024, .f32⟩
  | .local _ .vmem, ⟨0, _⟩ => ⟨S1x512x64, .f32⟩
  | .local _ .vmem, ⟨1, _⟩ => ⟨S1x512x64, .f32⟩
  | .local _ .vmem, ⟨2, _⟩ => ⟨S1x64x1024, .f32⟩
  | .local _ .vmem, ⟨3, _⟩ => ⟨S1x64x1024, .f32⟩
  | .local _ .vmem, ⟨4, _⟩ => ⟨S1x1024x64, .f32⟩
  | .local _ .vmem, ⟨5, _⟩ => ⟨S1x1024x64, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1, .f32⟩
  | .local _ .vmem, ⟨13, _⟩ => ⟨S1x512x64, .f32⟩
  | .local _ .vmem, ⟨14, _⟩ => ⟨S1x512x64, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | _, _ => ⟨S4x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S4x16x1024x64_S64x1024x64 : S4x16x1024x64.ShapeCasts S64x1024x64
  shapeCasts_S4x16x64x1024_S64x64x1024 : S4x16x64x1024.ShapeCasts S64x64x1024
  shapeCasts_S4x16x1024x1024_S64x1024x1024 : S4x16x1024x1024.ShapeCasts S64x1024x1024
  bcast_S_S4x1024 : S_.BroadcastsInDim S4x1024 (![] : Fin 0 → Fin S4x1024.rank)
  bcast_S4x1024_S4x1x1024_0_2 : S4x1024.BroadcastsInDim S4x1x1024 (![0, 2] : Fin 2 → Fin S4x1x1024.rank)
  bcast_S4x1x1024_S4x16x1024_0_1_2 : S4x1x1024.BroadcastsInDim S4x16x1024 (![0, 1, 2] : Fin 3 → Fin S4x16x1024.rank)
  shapeCasts_S4x16x1024_S64x1x1024 : S4x16x1024.ShapeCasts S64x1x1024
  shapeCasts_S_S1x1 : S_.ShapeCasts S1x1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S1x512x1024 : S512x1024.ShapeCasts S1x512x1024
  reduces_S512x1024_S512 : S512x1024.Reduces [1] S512
  shapeCasts_S512_S512x1 : S512.ShapeCasts S512x1
  broadcasts_S512x1_S512x1024 : S512x1.Broadcasts S512x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S512x64_S1x512x64 : S512x64.ShapeCasts S1x512x64
  shapeCasts_S64x1024x64_S4x16x1024x64 : S64x1024x64.ShapeCasts S4x16x1024x64
  shapeCasts_S64x1024x1024_S4x16x1024x1024 : S64x1024x1024.ShapeCasts S4x16x1024x1024
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x1024x64.size a
  hwx0_0 : ∀ i : grid0.Coords, EltTy.bits .f32 = 32 ∨ (Rect.block (s := S64x1024x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S64x64x1024.size a
  hwx0_1 : ∀ i : grid0.Coords, EltTy.bits .f32 = 32 ∨ (Rect.block (s := S64x64x1024) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S64x1024x64.size a
  hwx0_2 : ∀ i : grid0.Coords, EltTy.bits .f32 = 32 ∨ (Rect.block (s := S64x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x1024x1024.size a
  hwx0_3 : ∀ i : grid0.Coords, EltTy.bits .f32 = 32 ∨ (Rect.block (s := S64x1024x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S1x1024x1024.size a
  hwx0_4 : ∀ i : grid0.Coords, EltTy.bits .f32 = 32 ∨ (Rect.block (s := S1x1024x1024) S1x512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S64x1x1024.size a
  hwx0_5 : ∀ i : grid0.Coords, EltTy.bits .f32 = 32 ∨ (Rect.block (s := S64x1x1024) S1x1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x64.size a ≤ S64x1024x64.size a
  hwx0_7 : ∀ i : grid0.Coords, EltTy.bits .f32 = 32 ∨ (Rect.block (s := S64x1024x64) S1x512x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S64x1024x1024.size a
  hwx0_8 : ∀ i : grid0.Coords, EltTy.bits .f32 = 32 ∨ (Rect.block (s := S64x1024x1024) S1x512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S64x1024x1024.size a
  hwx0_9 : ∀ i : grid0.Coords, EltTy.bits .f32 = 32 ∨ (Rect.block (s := S64x1024x1024) S1x512x1024.size (cc0_transform_9 i) (hinb0_9 i)).WholeWords (EltTy.packing .f32)

variable [Facts₀]

def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S1x512x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x16x1024x64 : Shape := ⟨4, ![4, 16, 1024, 64]⟩
abbrev S4x16x64x1024 : Shape := ⟨4, ![4, 16, 64, 1024]⟩
abbrev S4x16x1024x1024 : Shape := ⟨4, ![4, 16, 1024, 1024]⟩
abbrev S1x1024x1024 : Shape := ⟨3, ![1, 1024, 1024]⟩
abbrev S4x1024 : Shape := ⟨2, ![4, 1024]⟩
abbrev S_ : Shape := ⟨0, ![]⟩
abbrev S1x1x1024x1024 : Shape := ⟨4, ![1, 1, 1024, 1024]⟩
abbrev S4x1x1x1024 : Shape := ⟨4, ![4, 1, 1, 1024]⟩
abbrev S4x16x1024 : Shape := ⟨3, ![4, 16, 1024]⟩
abbrev S4x16x1024x1 : Shape := ⟨4, ![4, 16, 1024, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x16x1024x64, .f32⟩
  | .hbm, ⟨1, _⟩ => ⟨S4x16x64x1024, .f32⟩
  | .hbm, ⟨2, _⟩ => ⟨S4x16x1024x64, .f32⟩
  | .hbm, ⟨3, _⟩ => ⟨S4x16x1024x1024, .f32⟩
  | .hbm, ⟨4, _⟩ => ⟨S1x1024x1024, .f32⟩
  | .hbm, ⟨5, _⟩ => ⟨S4x1024, .i1⟩
  | .hbm, ⟨6, _⟩ => ⟨S_, .f32⟩
  | .hbm, ⟨7, _⟩ => ⟨S4x16x1024x1024, .f32⟩
  | .hbm, ⟨8, _⟩ => ⟨S4x16x1024x1024, .f32⟩
  | .hbm, ⟨9, _⟩ => ⟨S4x16x1024x1024, .f32⟩
  | .hbm, ⟨10, _⟩ => ⟨S4x16x1024x1024, .f32⟩
  | .hbm, ⟨11, _⟩ => ⟨S1x1x1024x1024, .f32⟩
  | .hbm, ⟨12, _⟩ => ⟨S4x16x1024x1024, .f32⟩
  | .hbm, ⟨13, _⟩ => ⟨S4x16x1024x1024, .f32⟩
  | .hbm, ⟨14, _⟩ => ⟨S4x1x1x1024, .i1⟩
  | .hbm, ⟨15, _⟩ => ⟨S_, .f32⟩
  | .hbm, ⟨16, _⟩ => ⟨S_, .f32⟩
  | .hbm, ⟨17, _⟩ => ⟨S4x16x1024x1024, .i1⟩
  | .hbm, ⟨18, _⟩ => ⟨S4x16x1024x1024, .f32⟩
  | .hbm, ⟨19, _⟩ => ⟨S4x16x1024x1024, .f32⟩
  | .hbm, ⟨20, _⟩ => ⟨S_, .f32⟩
  | .hbm, ⟨21, _⟩ => ⟨S4x16x1024, .f32⟩
  | .hbm, ⟨22, _⟩ => ⟨S_, .f32⟩
  | .hbm, ⟨23, _⟩ => ⟨S4x16x1024, .f32⟩
  | .hbm, ⟨24, _⟩ => ⟨S4x16x1024, .f32⟩
  | .hbm, ⟨25, _⟩ => ⟨S4x16x1024x1, .f32⟩
  | .hbm, ⟨26, _⟩ => ⟨S4x16x1024x1024, .f32⟩
  | .hbm, ⟨27, _⟩ => ⟨S4x16x1024x1024, .f32⟩
  | .hbm, ⟨28, _⟩ => ⟨S4x16x1024x1024, .f32⟩
  | .hbm, ⟨29, _⟩ => ⟨S_, .f32⟩
  | .hbm, ⟨30, _⟩ => ⟨S4x16x1024, .f32⟩
  | .hbm, ⟨31, _⟩ => ⟨S4x16x1024x1, .f32⟩
  | .hbm, ⟨32, _⟩ => ⟨S4x16x1024x1024, .f32⟩
  | .hbm, ⟨33, _⟩ => ⟨S4x16x1024x1024, .f32⟩
  | .hbm, ⟨34, _⟩ => ⟨S4x16x1024x64, .f32⟩
  | _, _ => ⟨S4x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  bcast_S_S4x16x1024x1024 : S_.BroadcastsInDim S4x16x1024x1024 (![] : Fin 0 → Fin S4x16x1024x1024.rank)
  bcast_S1x1024x1024_S1x1x1024x1024_0_2_3 : S1x1024x1024.BroadcastsInDim S1x1x1024x1024 (![0, 2, 3] : Fin 3 → Fin S1x1x1024x1024.rank)
  bcast_S1x1x1024x1024_S4x16x1024x1024_0_1_2_3 : S1x1x1024x1024.BroadcastsInDim S4x16x1024x1024 (![0, 1, 2, 3] : Fin 4 → Fin S4x16x1024x1024.rank)
  bcast_S4x1024_S4x1x1x1024_0_3 : S4x1024.BroadcastsInDim S4x1x1x1024 (![0, 3] : Fin 2 → Fin S4x1x1x1024.rank)
  bcast_S4x1x1x1024_S4x16x1024x1024_0_1_2_3 : S4x1x1x1024.BroadcastsInDim S4x16x1024x1024 (![0, 1, 2, 3] : Fin 4 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  dot_S4x16x1024x64_S4x16x64x1024_S4x16x1024x1024_3_2_2_3_01_01_wf : DotDims.WF S4x16x1024x64 S4x16x64x1024 S4x16x1024x1024 [3] [2] [2] [3] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x16x1024x64_S4x16x64x1024_S4x16x1024x1024_3_2_2_3_01_01 : DotDims S4x16x1024x64 S4x16x64x1024 S4x16x1024x1024 where
  lhsContracting := [3]
  rhsContracting := [2]
  lhsNonContracting := [2]
  rhsNonContracting := [3]
  lhsBatch := [0, 1]
  rhsBatch := [0, 1]
  wf := dot_S4x16x1024x64_S4x16x64x1024_S4x16x1024x1024_3_2_2_3_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.AttnSpec.lean ====
/-
  Scaled-dot-product attention with an additive score carried over and a key-padding mask, row by row, on the extended
  reals.

  One row of scores is  s j = ((Σ_d q d · K d j) · scale + prev j) + mask j , then either "+ bias j" with a bias that is
  −∞ on padded keys and 0 elsewhere, or "−∞ where the key is padded, s j elsewhere". On the extended reals  x + (−∞) = −∞
  for EVERY x (also for x = +∞) and  x + 0 = x , so the two spellings agree with no finiteness assumption.

  A row's softmax is  exp(s j − M) / Σ_k exp(s k − M)  with M the running maximum of the row started from −∞ ; a row of the
  output is  Σ_j softmax j · V j d . Both programs compute exactly these terms, so nothing beyond  max(−∞, x) = x  and
  0 + x = x  is needed to join them.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-- The single-precision word of −∞ is the bottom of the extended reals. -/
theorem ofBits_negInf : Ideal.ofBits .f32 0xFF800000#32 = (⊥ : EReal) := by simp [Ideal.ofBits, Ideal.ieee]

/-- The maximum with −∞ is the other argument. -/
theorem max_negInf (x : EReal) : max (Ideal.ofBits .f32 0xFF800000#32) x = x := by
  rw [ofBits_negInf]; exact max_eq_right bot_le

/-- Adding a bias that is −∞ where the key is padded and 0 elsewhere is replacing the score by −∞ where the key is
    padded: on the extended reals −∞ absorbs every summand. -/
theorem add_select_bias (c : BitVec 1) (x : EReal) :
    x + Scalar.select c (Ideal.ofBits .f32 0xFF800000#32) (Ideal.ofBits .f32 0x00000000#32)
      = Scalar.select c (Ideal.ofBits .f32 0xFF800000#32) x := by
  by_cases h : c = 1#1
  · subst h
    rw [select_one, select_one, ofBits_negInf, EReal.add_bot]
  · obtain rfl : c = 0#1 := eq_zero_of_ne_one h
    rw [select_zero, select_zero, Ideal.ofBits_zero_f32, add_zero]

/-- One unmasked score: the scaled dot product plus the carried-over score plus the additive mask. -/
def rawScore {dk : ℕ} (q k : Fin dk → EReal) (scale prev mask : EReal) : EReal :=
  ((∑ d : Fin dk, q d * k d) * scale + prev) + mask

/-- The running maximum of a row, started from −∞. -/
def rowMax {n : ℕ} (s : Fin n → EReal) : EReal :=
  (Finset.univ : Finset (Fin n)).fold max (Ideal.ofBits .f32 0xFF800000#32) s

/-- A row's numerators: the exponential of the score less the row's maximum. -/
def rowExp {n : ℕ} (s : Fin n → EReal) (j : Fin n) : EReal := Ideal.exp (s j - rowMax s)

/-- A row's softmax: each numerator over the sum of the row's numerators. -/
def softmaxRow {n : ℕ} (s : Fin n → EReal) (j : Fin n) : EReal :=
  Ideal.div (rowExp s j) (∑ k : Fin n, rowExp s k)

/-- One entry of the output: the row of weights against a column of values. -/
def weighted {n : ℕ} (a v : Fin n → EReal) : EReal := ∑ j : Fin n, a j * v j

end Cert.Attention

end
-- ==== Proof.LibRowMax.lean ====
/-
  A maximum along the rows of a matrix, read at a row.

  A kernel that takes the maximum of an `[a, b]` block along its second axis (the per-row maximum a numerically stable
  softmax subtracts) gets an `[a]` vector whose entry `p` is the maximum over `k` of the block at `(p, k)`, started from
  the accumulator's word. Maximum on the extended reals commutes and associates, so the order of the reduction does not
  matter and the entry is the fold of `max` over the row's coordinates. The lemma says so for any extents, with the indices
  written by coordinates, for a single-precision reduction started from the word of `-∞`; a second lemma says the same of
  a host reduction over the last axis of a rank-4 array, the reference's spelling of the same row maximum.
-/
import Idealize.ShloMosaic.PureOps.Ideal.Laws
import Idealize.ShloMosaic.Lib.ValueIdx

noncomputable section

namespace Cert.RowMax

open Idealize.ShloMosaic Idealize.ShloMosaic.ValueIdx

/-- An `[a, b]` array of single-precision values reduced by maximum along its second axis into `[a]`, starting from the
    word of `-∞`, reads at `p` the fold of `max`, from that word's value, over `k : Fin b` of the array at `(p, k)`. The
    hypothesis on the start word is typed as a printed program spells its proof (the word equal to itself). -/
theorem multiReduction_max_rows_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  refine congrArg (fun f => Finset.fold max (Ideal.ofBits .f32 0xFF800000#32) f (Finset.univ : Finset (Fin b))) ?_
  exact funext fun k => congrArg v (funext fun c => Fin.ext (by
    match c with
    | ⟨0, _⟩ => rfl
    | ⟨1, _⟩ => rfl))

/-- The host's reduction by maximum over the LAST axis of an `[a, b, c, d]` array, from a scalar initial value, reads at
    `(p, q, r)` the fold of `max`, from the initial value, over `k : Fin d` of the array at `(p, q, r, k)`. -/
theorem hostReduce_max_last4_apply {a b c d : ℕ} (x : FVec Ideal ⟨4, ![a, b, c, d]⟩ .f32)
    (init : FVec Ideal ⟨0, ![]⟩ .f32)
    (h' : (⟨4, ![a, b, c, d]⟩ : Shape).ReducesTo [3] ⟨3, ![a, b, c]⟩)
    (h : (⟨4, ![a, b, c, d]⟩ : Shape).Reduces [3] ⟨3, ![a, b, c]⟩) (hu : 0 < (⟨0, ![]⟩ : Shape).numel)
    (p : Fin a) (q : Fin b) (r : Fin c) :
    Host.reduce FloatOps.maximumf x init h' hu (ix3 p q r)
      = (Finset.univ : Finset (Fin d)).fold max (init (Shape.Idx.first hu)) (fun k => x (ix4 p q r k)) := by
  refine (Host.reduce_eq_fold_single FloatOps.maximumf x init h' h hu (ix3 p q r)).trans ?_
  refine congrArg (fun f => Finset.fold max (init (Shape.Idx.first hu)) f (Finset.univ : Finset (Fin d))) ?_
  exact funext fun k => congrArg x (funext fun e => Fin.ext (by
    match e with
    | ⟨0, _⟩ => rfl
    | ⟨1, _⟩ => rfl
    | ⟨2, _⟩ => rfl
    | ⟨3, _⟩ => rfl))

end Cert.RowMax

end
-- ==== Proof.LibRowSums.lean ====
/-
  A sum along the rows of a matrix, read at a row.

  A kernel that reduces a `[a, b]` block along its second axis (a per-row sum: the numerator of a row mean, of a row
  variance, of a row norm) gets an `[a]` vector whose entry `p` is the sum over `k` of the block at `(p, k)`. The lemma
  says so for any extents, with the indices written by coordinates, for a single-precision sum started from the zero
  word.
-/
import Idealize.ShloMosaic.PureOps.Ideal.Laws
import Idealize.ShloMosaic.Lib.ValueIdx

noncomputable section

open scoped BigOperators

namespace Cert.RowSums

open Idealize.ShloMosaic Idealize.ShloMosaic.ValueIdx

/-- An `[a, b]` array of single-precision values summed along its second axis into `[a]`, starting from the zero word,
    reads at `p` the sum over `k : Fin b` of the array at `(p, k)`. The hypothesis on the start word is typed as a printed
    program spells its proof (the word equal to itself). -/
theorem multiReduction_add_rows_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (funext fun c => Fin.ext (by
    match c with
    | ⟨0, _⟩ => rfl
    | ⟨1, _⟩ => rfl))

end Cert.RowSums

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.KernelBlock.lean ====
/-
  What the kernel's body computes from one grid point's blocks, entry by entry, on the extended reals.

  The body holds a [512, 64] block of queries, the [64, 1024] keys and the [1024, 64] values of one (batch, head) pair, a
  [512, 1024] block of carried-over scores and of the additive mask, a [1, 1024] key-padding bias and the scale. Row p of
  its score block is  ((Σ_d q p d · k d j) · scale + prev p j) + mask p j  plus the bias at j; row p of its weights is the
  softmax of that row (maximum started from −∞, exponentials, their sum, the quotient); row p of its output is the row of
  weights against the columns of the values. A change of float format is the identity on the extended reals, so the
  roundings on the way into the two matrix products disappear.
-/
import proofs.«101433_j455266533973_2_alg».proof.Proof.Gen.KernelIdeal.Skeleton
import proofs.«101433_j455266533973_2_alg».proof.Proof.AttnSpec
import proofs.«101433_j455266533973_2_alg».proof.Proof.LibRowMax
import proofs.«101433_j455266533973_2_alg».proof.Proof.LibRowSums
import proofs.«101433_j455266533973_2_alg».proof.Proof.LibColumnLayouts
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Attention

/-- The first matrix product into a zero accumulator, at an entry: row p of the left factor against column j of the
    right one. -/
theorem scoreProduct_apply (a : FVec Ideal S512x64 .bf16) (b : FVec Ideal S64x1024 .bf16) (p : Fin 512) (j : Fin 1024) :
    matmul dot_S512x64_S64x1024_S512x1024_1_0_0_1_n_n none a b (constant (F := Ideal) S512x1024 .f32 0x00000000#32) (ix2 p j)
      = ∑ d : Fin 64, a (ix2 p d) * b (ix2 d j) := by
  simp only [matmul]
  rw [Ideal.matmul_constant_zero_apply,
    ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 p j)
      ((contrEquiv1 dot_S512x64_S64x1024_S512x1024_1_0_0_1_n_n 64 rfl rfl).symm k) = ix2 p k :=
    funext fun c => Fin.ext (by
      match c with
      | ⟨0, _⟩ => rfl
      | ⟨1, _⟩ => exact (dot_S512x64_S64x1024_S512x1024_1_0_0_1_n_n.lhsIdx_val_of_single rfl _ _).trans hk)
  have er : dot_S512x64_S64x1024_S512x1024_1_0_0_1_n_n.rhsIdx (ix2 p j)
      ((contrEquiv1 dot_S512x64_S64x1024_S512x1024_1_0_0_1_n_n 64 rfl rfl).symm k) = ix2 k j :=
    funext fun c => Fin.ext (by
      match c with
      | ⟨0, _⟩ => exact (dot_S512x64_S64x1024_S512x1024_1_0_0_1_n_n.rhsIdx_val_of_single rfl _ _).trans hk
      | ⟨1, _⟩ => rfl)
  rw [el, er]

/-- The second matrix product into a zero accumulator, at an entry: row p of the weights against column d of the
    values. -/
theorem outProduct_apply (a : FVec Ideal S512x1024 .bf16) (b : FVec Ideal S1024x64 .bf16) (p : Fin 512) (d : Fin 64) :
    matmul dot_S512x1024_S1024x64_S512x64_1_0_0_1_n_n none a b (constant (F := Ideal) S512x64 .f32 0x00000000#32) (ix2 p d)
      = ∑ j : Fin 1024, a (ix2 p j) * b (ix2 j d) := by
  simp only [matmul]
  rw [Ideal.matmul_constant_zero_apply,
    ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 p d)
      ((contrEquiv1 dot_S512x1024_S1024x64_S512x64_1_0_0_1_n_n 1024 rfl rfl).symm k) = ix2 p k :=
    funext fun c => Fin.ext (by
      match c with
      | ⟨0, _⟩ => rfl
      | ⟨1, _⟩ => exact (dot_S512x1024_S1024x64_S512x64_1_0_0_1_n_n.lhsIdx_val_of_single rfl _ _).trans hk)
  have er : dot_S512x1024_S1024x64_S512x64_1_0_0_1_n_n.rhsIdx (ix2 p d)
      ((contrEquiv1 dot_S512x1024_S1024x64_S512x64_1_0_0_1_n_n 1024 rfl rfl).symm k) = ix2 k d :=
    funext fun c => Fin.ext (by
      match c with
      | ⟨0, _⟩ => exact (dot_S512x1024_S1024x64_S512x64_1_0_0_1_n_n.rhsIdx_val_of_single rfl _ _).trans hk
      | ⟨1, _⟩ => rfl)
  rw [el, er]

/-- One entry of the body's score block: the unmasked score of row p against key j, plus the key's padding bias. -/
theorem scores_apply (v0 : Vec Ideal S1x512x64 .f32) (v3 : Vec Ideal S1x64x1024 .f32) (v7 : Vec Ideal S1x1 .f32)
    (v11 v14 : Vec Ideal S1x512x1024 .f32) (v17 : Vec Ideal S1x1x1024 .f32) (p : Fin 512) (j : Fin 1024) :
    k0_pay3 v0 v3 v7 v11 v14 v17 (ix2 p j)
      = rawScore (fun d : Fin 64 => v0 (ix3 (0 : Fin 1) p d)) (fun d : Fin 64 => v3 (ix3 (0 : Fin 1) d j))
          (v7 (ix2 (0 : Fin 1) (0 : Fin 1))) (v11 (ix3 (0 : Fin 1) p j)) (v14 (ix3 (0 : Fin 1) p j))
        + v17 (ix3 (0 : Fin 1) (0 : Fin 1) j) := by
  have e1 : matmul dot_S512x64_S64x1024_S512x1024_1_0_0_1_n_n none
        (truncf .bf16 (shapeCast S512x64 v0 shapeCasts_S1x512x64_S512x64) bitsLt_bf16_f32)
        (truncf .bf16 (shapeCast S64x1024 v3 shapeCasts_S1x64x1024_S64x1024) bitsLt_bf16_f32)
        (constant (F := Ideal) S512x1024 .f32 0x00000000#32) (ix2 p j)
      = ∑ d : Fin 64, v0 (ix3 (0 : Fin 1) p d) * v3 (ix3 (0 : Fin 1) d j) :=
    (scoreProduct_apply _ _ p j).trans (Finset.sum_congr rfl fun d _ =>
      congrArg₂ (· * ·) (shapeCast_1ab_ab_apply v0 shapeCasts_S1x512x64_S512x64 p d)
        (shapeCast_1ab_ab_apply v3 shapeCasts_S1x64x1024_S64x1024 d j))
  have e2 : extractAt ![0, 0] v7 inpos_S1x1_p0_0 = v7 (ix2 (0 : Fin 1) (0 : Fin 1)) :=
    congrArg v7 (funext fun c => Fin.ext (by
      match c with
      | ⟨0, _⟩ => rfl
      | ⟨1, _⟩ => rfl))
  have e3 : shapeCast S512x1024 v11 shapeCasts_S1x512x1024_S512x1024 (ix2 p j) = v11 (ix3 (0 : Fin 1) p j) :=
    shapeCast_1ab_ab_apply v11 shapeCasts_S1x512x1024_S512x1024 p j
  have e4 : shapeCast S512x1024 v14 shapeCasts_S1x512x1024_S512x1024 (ix2 p j) = v14 (ix3 (0 : Fin 1) p j) :=
    shapeCast_1ab_ab_apply v14 shapeCasts_S1x512x1024_S512x1024 p j
  have e5 : broadcastTo S512x1024 (shapeCast S1x1024 v17 shapeCasts_S1x1x1024_S1x1024) broadcasts_S1x1024_S512x1024 (ix2 p j)
      = v17 (ix3 (0 : Fin 1) (0 : Fin 1) j) :=
    (broadcastTo_1b_ab_apply _ broadcasts_S1x1024_S512x1024 p j).trans
      (shapeCast_1ab_ab_apply v17 shapeCasts_S1x1x1024_S1x1024 (0 : Fin 1) j)
  unfold k0_pay3 rawScore
  exact congrArg₂ (· + ·) (congrArg₂ (· + ·) (congrArg₂ (· + ·) (congrArg₂ (· * ·) e1 e2) e3) e4) e5

/-- The row maximum, taken along the row, kept as a column and spread back over the row: at every entry of row p it is the
    running maximum of that row. -/
theorem rowMax_spread_apply (S : FVec Ideal S512x1024 .f32) (p : Fin 512) (j : Fin 1024) :
    broadcastTo S512x1024 (shapeCast S512x1 (multiReduction .maximumf [1] S512 S 0xFF800000#32 reduces_S512x1024_S512 (.inl rfl) rfl)
        shapeCasts_S512_S512x1) broadcasts_S512x1_S512x1024 (ix2 p j)
      = rowMax (fun k : Fin 1024 => S (ix2 p k)) :=
  (Cert.ColumnLayouts.broadcastTo_a1_ab_apply _ broadcasts_S512x1_S512x1024 p j).trans
    ((Cert.ColumnLayouts.shapeCast_a_a1_apply _ shapeCasts_S512_S512x1 p (0 : Fin 1)).trans
      (Cert.RowMax.multiReduction_max_rows_apply S reduces_S512x1024_S512 (.inl rfl) rfl p))

/-- The row sum, taken along the row, kept as a column and spread back over the row: at every entry of row p it is the
    sum of that row. -/
theorem rowSum_spread_apply (E : FVec Ideal S512x1024 .f32) (p : Fin 512) (j : Fin 1024) :
    broadcastTo S512x1024 (shapeCast S512x1 (multiReduction .add [1] S512 E 0x00000000#32 reduces_S512x1024_S512 (.inl rfl) rfl)
        shapeCasts_S512_S512x1) broadcasts_S512x1_S512x1024 (ix2 p j)
      = ∑ k : Fin 1024, E (ix2 p k) :=
  (Cert.ColumnLayouts.broadcastTo_a1_ab_apply _ broadcasts_S512x1_S512x1024 p j).trans
    ((Cert.ColumnLayouts.shapeCast_a_a1_apply _ shapeCasts_S512_S512x1 p (0 : Fin 1)).trans
      (Cert.RowSums.multiReduction_add_rows_apply E reduces_S512x1024_S512 (.inl rfl) rfl p))

/-- The block of numerators: each score less its row's maximum, exponentiated. -/
def numerators (S : FVec Ideal S512x1024 .f32) : FVec Ideal S512x1024 .f32 :=
  exp (subf S (broadcastTo S512x1024 (shapeCast S512x1 (multiReduction .maximumf [1] S512 S 0xFF800000#32 reduces_S512x1024_S512 (.inl rfl) rfl)
    shapeCasts_S512_S512x1) broadcasts_S512x1_S512x1024))

theorem numerators_apply (S : FVec Ideal S512x1024 .f32) (p : Fin 512) (j : Fin 1024) :
    numerators S (ix2 p j) = rowExp (fun k : Fin 1024 => S (ix2 p k)) j := by
  unfold numerators rowExp
  exact congrArg (fun x : EReal => Ideal.exp (S (ix2 p j) - x)) (rowMax_spread_apply S p j)

/-- The block of weights: each numerator over its row's sum of numerators. -/
def weights (S : FVec Ideal S512x1024 .f32) : FVec Ideal S512x1024 .f32 :=
  divf (numerators S) (broadcastTo S512x1024 (shapeCast S512x1 (multiReduction .add [1] S512 (numerators S) 0x00000000#32 reduces_S512x1024_S512 (.inl rfl) rfl)
    shapeCasts_S512_S512x1) broadcasts_S512x1_S512x1024)

/-- Row p of the block of weights is the softmax of row p of the scores. -/
theorem weights_apply (S : FVec Ideal S512x1024 .f32) (p : Fin 512) (j : Fin 1024) :
    weights S (ix2 p j) = softmaxRow (fun k : Fin 1024 => S (ix2 p k)) j := by
  unfold weights softmaxRow
  exact congrArg₂ Ideal.div (numerators_apply S p j)
    ((rowSum_spread_apply (numerators S) p j).trans (Finset.sum_congr rfl fun k _ => numerators_apply S p k))

/-- The body's weights are the softmax, row by row, of the body's scores. -/
theorem softmax_payload (v0 : Vec Ideal S1x512x64 .f32) (v3 : Vec Ideal S1x64x1024 .f32) (v7 : Vec Ideal S1x1 .f32)
    (v11 v14 : Vec Ideal S1x512x1024 .f32) (v17 : Vec Ideal S1x1x1024 .f32) :
    k0_pay5 v0 v3 v7 v11 v14 v17 = weights (k0_pay3 v0 v3 v7 v11 v14 v17) := rfl

/-- The stored weights: the block of weights under a leading unit axis. -/
theorem storedWeights_apply (A : FVec Ideal S512x1024 .f32) (u : Fin 1) (p : Fin 512) (j : Fin 1024) :
    k0_pay1 A (ix3 u p j) = A (ix2 p j) :=
  shapeCast_ab_1ab_apply A shapeCasts_S512x1024_S1x512x1024 u p j

/-- The stored scores: the block of scores under a leading unit axis. -/
theorem storedScores_apply (v0 : Vec Ideal S1x512x64 .f32) (v3 : Vec Ideal S1x64x1024 .f32) (v7 : Vec Ideal S1x1 .f32)
    (v11 v14 : Vec Ideal S1x512x1024 .f32) (v17 : Vec Ideal S1x1x1024 .f32) (u : Fin 1) (p : Fin 512) (j : Fin 1024) :
    k0_pay4 v0 v3 v7 v11 v14 v17 (ix3 u p j) = k0_pay3 v0 v3 v7 v11 v14 v17 (ix2 p j) :=
  shapeCast_ab_1ab_apply (k0_pay3 v0 v3 v7 v11 v14 v17) shapeCasts_S512x1024_S1x512x1024 u p j

/-- The stored output: row p of the weights against column d of the values. -/
theorem storedOut_apply (A : FVec Ideal S512x1024 .f32) (v36 : Vec Ideal S1x1024x64 .f32) (u : Fin 1) (p : Fin 512) (d : Fin 64) :
    k0_pay2 A v36 (ix3 u p d) = weighted (fun j : Fin 1024 => A (ix2 p j)) (fun j : Fin 1024 => v36 (ix3 (0 : Fin 1) j d)) := by
  have e1 : matmul dot_S512x1024_S1024x64_S512x64_1_0_0_1_n_n none
        (truncf .bf16 A bitsLt_bf16_f32)
        (truncf .bf16 (shapeCast S1024x64 v36 shapeCasts_S1x1024x64_S1024x64) bitsLt_bf16_f32)
        (constant (F := Ideal) S512x64 .f32 0x00000000#32) (ix2 p d)
      = ∑ j : Fin 1024, A (ix2 p j) * v36 (ix3 (0 : Fin 1) j d) :=
    (outProduct_apply _ _ p d).trans (Finset.sum_congr rfl fun j _ =>
      congrArg (fun x : EReal => A (ix2 p j) * x) (shapeCast_1ab_ab_apply v36 shapeCasts_S1x1024x64_S1024x64 j d))
  unfold k0_pay2 weighted
  exact (shapeCast_ab_1ab_apply _ shapeCasts_S512x64_S1x512x64 u p d).trans e1

end Cert.KernelIdeal.Block

end
-- ==== Proof.KernelOuts.lean ====
/-
  What one grid point leaves in each output block, entry by entry, from the point's input blocks.

  Each output block is written by one store over the whole block, so the block is the stored value: the scores of the
  point's 512 query rows against the 1024 keys, the softmax of each of those rows, and each row of weights against the
  columns of the values.
-/
import proofs.«101433_j455266533973_2_alg».proof.Proof.Gen.KernelIdeal.Frame
import proofs.«101433_j455266533973_2_alg».proof.Proof.KernelBlock

noncomputable section

open scoped BigOperators

namespace Cert.KernelIdeal.Block

open Cert.KernelIdeal Cert.KernelIdeal.Gen Idealize.ShloMosaic Idealize.ShloMosaic.ValueIdx Cert.Attention

theorem zero3 : (![0, 0, 0] : Fin 3 → Nat) = fun _ => 0 := funext fun a => by fin_cases a <;> rfl
theorem zero2 : (![0, 0] : Fin 2 → Nat) = fun _ => 0 := funext fun a => by fin_cases a <;> rfl

/-- Row p of the point's scores, from its blocks: the unmasked scores plus the padding bias. -/
def blockScoreRow (x0 : Vec Ideal S1x512x64 .f32) (x1 : Vec Ideal S1x64x1024 .f32) (x3 x4 : Vec Ideal S1x512x1024 .f32)
    (x5 : Vec Ideal S1x1x1024 .f32) (x6 : Vec Ideal S1x1 .f32) (p : Fin 512) (j : Fin 1024) : EReal :=
  rawScore (fun d : Fin 64 => x0 (ix3 (0 : Fin 1) p d)) (fun d : Fin 64 => x1 (ix3 (0 : Fin 1) d j))
      (x6 (ix2 (0 : Fin 1) (0 : Fin 1))) (x3 (ix3 (0 : Fin 1) p j)) (x4 (ix3 (0 : Fin 1) p j))
    + x5 (ix3 (0 : Fin 1) (0 : Fin 1) j)

/-- The score block a point writes back. -/
theorem scoresOut_apply (x0 : Vec Ideal S1x512x64 .f32) (x1 : Vec Ideal S1x64x1024 .f32) (x2 : Vec Ideal S1x1024x64 .f32)
    (x3 x4 : Vec Ideal S1x512x1024 .f32) (x5 : Vec Ideal S1x1x1024 .f32) (x6 : Vec Ideal S1x1 .f32)
    (u : Fin 1) (p : Fin 512) (j : Fin 1024) :
    out0_9 x0 x1 x2 x3 x4 x5 x6 (ix3 u p j) = blockScoreRow x0 x1 x3 x4 x5 x6 p j := by
  unfold out0_9
  rw [View.canon_unit_zero zero3]
  simp only [View.ld_unit_zero (S := S1x512x64) zero3, View.ld_unit_zero (S := S1x64x1024) zero3,
    View.ld_unit_zero (S := S1x512x1024) zero3, View.ld_unit_zero (S := S1x1x1024) zero3,
    View.ld_unit_zero (S := S1x1) zero2]
  exact (storedScores_apply x0 x1 x6 x3 x4 x5 u p j).trans (scores_apply x0 x1 x6 x3 x4 x5 p j)

/-- The block of weights a point writes back: row by row the softmax of its scores. -/
theorem weightsOut_apply (x0 : Vec Ideal S1x512x64 .f32) (x1 : Vec Ideal S1x64x1024 .f32) (x2 : Vec Ideal S1x1024x64 .f32)
    (x3 x4 : Vec Ideal S1x512x1024 .f32) (x5 : Vec Ideal S1x1x1024 .f32) (x6 : Vec Ideal S1x1 .f32)
    (u : Fin 1) (p : Fin 512) (j : Fin 1024) :
    out0_8 x0 x1 x2 x3 x4 x5 x6 (ix3 u p j) = softmaxRow (blockScoreRow x0 x1 x3 x4 x5 x6 p) j := by
  unfold out0_8
  rw [View.canon_unit_zero zero3]
  simp only [View.ld_unit_zero (S := S1x512x64) zero3, View.ld_unit_zero (S := S1x64x1024) zero3,
    View.ld_unit_zero (S := S1x512x1024) zero3, View.ld_unit_zero (S := S1x1x1024) zero3,
    View.ld_unit_zero (S := S1x1) zero2]
  refine (storedWeights_apply _ u p j).trans ?_
  rw [softmax_payload]
  refine (weights_apply _ p j).trans ?_
  exact congrArg (fun s : Fin 1024 → EReal => softmaxRow s j) (funext fun k => scores_apply x0 x1 x6 x3 x4 x5 p k)

/-- The output block a point writes back: each row of weights against the columns of the values. -/
theorem out_apply (x0 : Vec Ideal S1x512x64 .f32) (x1 : Vec Ideal S1x64x1024 .f32) (x2 : Vec Ideal S1x1024x64 .f32)
    (x3 x4 : Vec Ideal S1x512x1024 .f32) (x5 : Vec Ideal S1x1x1024 .f32) (x6 : Vec Ideal S1x1 .f32)
    (u : Fin 1) (p : Fin 512) (d : Fin 64) :
    out0_7 x0 x1 x2 x3 x4 x5 x6 (ix3 u p d)
      = weighted (softmaxRow (blockScoreRow x0 x1 x3 x4 x5 x6 p)) (fun j : Fin 1024 => x2 (ix3 (0 : Fin 1) j d)) := by
  unfold out0_7
  rw [View.canon_unit_zero zero3]
  simp only [View.ld_unit_zero (S := S1x512x64) zero3, View.ld_unit_zero (S := S1x64x1024) zero3,
    View.ld_unit_zero (S := S1x512x1024) zero3, View.ld_unit_zero (S := S1x1x1024) zero3,
    View.ld_unit_zero (S := S1x1024x64) zero3, View.ld_unit_zero (S := S1x1) zero2]
  refine (storedOut_apply _ x2 u p d).trans ?_
  rw [softmax_payload]
  refine congrArg (fun a : Fin 1024 → EReal => weighted a (fun j : Fin 1024 => x2 (ix3 (0 : Fin 1) j d))) (funext fun j => ?_)
  refine (weights_apply _ p j).trans ?_
  exact congrArg (fun s : Fin 1024 → EReal => softmaxRow s j) (funext fun k => scores_apply x0 x1 x6 x3 x4 x5 p k)

end Cert.KernelIdeal.Block

end
-- ==== Proof.KernelWhole.lean ====
/-
  The three output arrays after the run, as whole-array functions of the arrays the region was launched on.

  Grid point t = 2·g + h handles (batch, head) pair g and the query rows 512·h … 512·h + 511: its query, carried-score and
  mask blocks are those rows, its key, value and bias blocks are pair g's whole arrays. Every entry of an output array lies
  in exactly the block of the point with g its first coordinate and h the half its row falls in, so the array ends holding
  the row-wise attention terms everywhere.
-/
import proofs.«101433_j455266533973_2_alg».proof.Proof.Gen.KernelIdeal.Frame
import proofs.«101433_j455266533973_2_alg».proof.Proof.KernelOuts
import Idealize.ShloMosaic.Lib.Pipeline.Value

noncomputable section

open scoped BigOperators

namespace Cert.KernelIdeal.Whole

open Cert.KernelIdeal Cert.KernelIdeal.Gen Cert.KernelIdeal.Block Idealize.ShloMosaic Idealize.ShloMosaic.TcCoe
open Idealize.SL.Sem Idealize.ShloMosaic.ValueIdx Cert.Attention
open Idealize.ShloMosaic.Pipeline (Dat)

variable (m : (ℓ : Loc nD τ sig) → Buf (Elt Ideal) ℓ)

/-- Row r of pair g's scores, from the launched arrays: the unmasked scores plus the pair's padding bias. -/
def scoreRow (Q : S64x1024x64.Idx → EReal) (K : S64x64x1024.Idx → EReal) (P : S64x1024x1024.Idx → EReal)
    (M : S1x1024x1024.Idx → EReal) (B : S64x1x1024.Idx → EReal) (sc : S1x1.Idx → EReal)
    (g : Fin 64) (r : Fin 1024) (j : Fin 1024) : EReal :=
  rawScore (fun d : Fin 64 => Q (ix3 g r d)) (fun d : Fin 64 => K (ix3 g d j)) (sc (ix2 (0 : Fin 1) (0 : Fin 1)))
      (P (ix3 g r j)) (M (ix3 (0 : Fin 1) r j))
    + B (ix3 g (0 : Fin 1) j)

/-- The scores array. -/
def scoresArr (Q : S64x1024x64.Idx → EReal) (K : S64x64x1024.Idx → EReal) (P : S64x1024x1024.Idx → EReal)
    (M : S1x1024x1024.Idx → EReal) (B : S64x1x1024.Idx → EReal) (sc : S1x1.Idx → EReal) : S64x1024x1024.Idx → EReal :=
  fun i => scoreRow Q K P M B sc (i 0) (i 1) (i 2)

/-- The weights array: the softmax of each row of scores. -/
def weightsArr (Q : S64x1024x64.Idx → EReal) (K : S64x64x1024.Idx → EReal) (P : S64x1024x1024.Idx → EReal)
    (M : S1x1024x1024.Idx → EReal) (B : S64x1x1024.Idx → EReal) (sc : S1x1.Idx → EReal) : S64x1024x1024.Idx → EReal :=
  fun i => softmaxRow (scoreRow Q K P M B sc (i 0) (i 1)) (i 2)

/-- The output array: each row of weights against the columns of its pair's values. -/
def outArr (Q : S64x1024x64.Idx → EReal) (K : S64x64x1024.Idx → EReal) (W : S64x1024x64.Idx → EReal)
    (P : S64x1024x1024.Idx → EReal) (M : S1x1024x1024.Idx → EReal) (B : S64x1x1024.Idx → EReal) (sc : S1x1.Idx → EReal) :
    S64x1024x64.Idx → EReal :=
  fun i => weighted (softmaxRow (scoreRow Q K P M B sc (i 0) (i 1))) (fun j : Fin 1024 => W (ix3 (i 0) j (i 2)))

/-- The printed index maps over the grid: point t is pair t / 2 and row half t % 2. -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = 0 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = t.val % 2 ∧ win0_3.index t (2 : Fin 3) = 0)
    ∧ (win0_4.index t (0 : Fin 3) = 0 ∧ win0_4.index t (1 : Fin 3) = t.val % 2 ∧ win0_4.index t (2 : Fin 3) = 0)
    ∧ (win0_5.index t (0 : Fin 3) = t.val / 2 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 3) = t.val / 2 ∧ win0_7.index t (1 : Fin 3) = t.val % 2 ∧ win0_7.index t (2 : Fin 3) = 0)
    ∧ (win0_8.index t (0 : Fin 3) = t.val / 2 ∧ win0_8.index t (1 : Fin 3) = t.val % 2 ∧ win0_8.index t (2 : Fin 3) = 0)
    ∧ (win0_9.index t (0 : Fin 3) = t.val / 2 ∧ win0_9.index t (1 : Fin 3) = t.val % 2 ∧ win0_9.index t (2 : Fin 3) = 0) :=
  (by decide +kernel : ∀ t : Fin grid0.N, _)

/-- The query block of point t: rows of pair t / 2 in the half t % 2. -/
theorem queryBlock_apply (c : Dev nD) (t : Fin cfg0.N) (u : Fin 1) (p : Fin 512) (d : Fin 64) (g : Fin 64) (r : Fin 1024)
    (hg : g.val = t.val / 2) (hr : r.val = t.val % 2 * 512 + p.val) :
    (iblk m c 0 t : Vec Ideal S1x512x64 .f32) (ix3 u p d) = (V m c main_v0 : S64x1024x64.Idx → EReal) (ix3 g r d) := by
  obtain ⟨⟨h0, h1, h2⟩, -, -, -, -, -, -, -, -, -⟩ := idx_facts t
  show V m c main_v0 (((cfg0.win 0).blk t).view.emb (ix3 u p d)) = _
  have h : ((cfg0.win 0).blk t).view.emb (ix3 u p d) = ix3 g r d := by
    funext a; apply Fin.ext
    match a with
    | ⟨0, _⟩ => show win0_0.index t (0 : Fin 3) * 1 + 1 * u.val = g.val; have := u.isLt; omega
    | ⟨1, _⟩ => show win0_0.index t (1 : Fin 3) * 512 + 1 * p.val = r.val; omega
    | ⟨2, _⟩ => show win0_0.index t (2 : Fin 3) * 64 + 1 * d.val = d.val; omega
  rw [h]

/-- The key block of point t: pair t / 2's whole array. -/
theorem keyBlock_apply (c : Dev nD) (t : Fin cfg0.N) (u : Fin 1) (d : Fin 64) (j : Fin 1024) (g : Fin 64) (hg : g.val = t.val / 2) :
    (iblk m c 1 t : Vec Ideal S1x64x1024 .f32) (ix3 u d j) = (V m c main_v1 : S64x64x1024.Idx → EReal) (ix3 g d j) := by
  obtain ⟨-, ⟨h0, h1, h2⟩, -, -, -, -, -, -, -, -⟩ := idx_facts t
  show V m c main_v1 (((cfg0.win 1).blk t).view.emb (ix3 u d j)) = _
  have h : ((cfg0.win 1).blk t).view.emb (ix3 u d j) = ix3 g d j := by
    funext a; apply Fin.ext
    match a with
    | ⟨0, _⟩ => show win0_1.index t (0 : Fin 3) * 1 + 1 * u.val = g.val; have := u.isLt; omega
    | ⟨1, _⟩ => show win0_1.index t (1 : Fin 3) * 64 + 1 * d.val = d.val; omega
    | ⟨2, _⟩ => show win0_1.index t (2 : Fin 3) * 1024 + 1 * j.val = j.val; omega
  rw [h]

/-- The value block of point t: pair t / 2's whole array. -/
theorem valueBlock_apply (c : Dev nD) (t : Fin cfg0.N) (u : Fin 1) (j : Fin 1024) (d : Fin 64) (g : Fin 64) (hg : g.val = t.val / 2) :
    (iblk m c 2 t : Vec Ideal S1x1024x64 .f32) (ix3 u j d) = (V m c main_v2 : S64x1024x64.Idx → EReal) (ix3 g j d) := by
  obtain ⟨-, -, ⟨h0, h1, h2⟩, -, -, -, -, -, -, -⟩ := idx_facts t
  show V m c main_v2 (((cfg0.win 2).blk t).view.emb (ix3 u j d)) = _
  have h : ((cfg0.win 2).blk t).view.emb (ix3 u j d) = ix3 g j d := by
    funext a; apply Fin.ext
    match a with
    | ⟨0, _⟩ => show win0_2.index t (0 : Fin 3) * 1 + 1 * u.val = g.val; have := u.isLt; omega
    | ⟨1, _⟩ => show win0_2.index t (1 : Fin 3) * 1024 + 1 * j.val = j.val; omega
    | ⟨2, _⟩ => show win0_2.index t (2 : Fin 3) * 64 + 1 * d.val = d.val; omega
  rw [h]

/-- The carried-score block of point t: rows of pair t / 2 in the half t % 2. -/
theorem carriedBlock_apply (c : Dev nD) (t : Fin cfg0.N) (u : Fin 1) (p : Fin 512) (j : Fin 1024) (g : Fin 64) (r : Fin 1024) (hg : g.val = t.val / 2) (hr : r.val = t.val % 2 * 512 + p.val) :
    (iblk m c 3 t : Vec Ideal S1x512x1024 .f32) (ix3 u p j) = (V m c main_v3 : S64x1024x1024.Idx → EReal) (ix3 g r j) := by
  obtain ⟨-, -, -, ⟨h0, h1, h2⟩, -, -, -, -, -, -⟩ := idx_facts t
  show V m c main_v3 (((cfg0.win 3).blk t).view.emb (ix3 u p j)) = _
  have h : ((cfg0.win 3).blk t).view.emb (ix3 u p j) = ix3 g r j := by
    funext a; apply Fin.ext
    match a with
    | ⟨0, _⟩ => show win0_3.index t (0 : Fin 3) * 1 + 1 * u.val = g.val; have := u.isLt; omega
    | ⟨1, _⟩ => show win0_3.index t (1 : Fin 3) * 512 + 1 * p.val = r.val; omega
    | ⟨2, _⟩ => show win0_3.index t (2 : Fin 3) * 1024 + 1 * j.val = j.val; omega
  rw [h]

/-- The mask block of point t: the rows of the half t % 2 of the one mask. -/
theorem maskBlock_apply (c : Dev nD) (t : Fin cfg0.N) (u : Fin 1) (p : Fin 512) (j : Fin 1024) (r : Fin 1024) (hr : r.val = t.val % 2 * 512 + p.val) :
    (iblk m c 4 t : Vec Ideal S1x512x1024 .f32) (ix3 u p j) = (V m c main_arg4 : S1x1024x1024.Idx → EReal) (ix3 (0 : Fin 1) r j) := by
  obtain ⟨-, -, -, -, ⟨h0, h1, h2⟩, -, -, -, -, -⟩ := idx_facts t
  show V m c main_arg4 (((cfg0.win 4).blk t).view.emb (ix3 u p j)) = _
  have h : ((cfg0.win 4).blk t).view.emb (ix3 u p j) = ix3 (0 : Fin 1) r j := by
    funext a; apply Fin.ext
    match a with
    | ⟨0, _⟩ => show win0_4.index t (0 : Fin 3) * 1 + 1 * u.val = 0; have := u.isLt; omega
    | ⟨1, _⟩ => show win0_4.index t (1 : Fin 3) * 512 + 1 * p.val = r.val; omega
    | ⟨2, _⟩ => show win0_4.index t (2 : Fin 3) * 1024 + 1 * j.val = j.val; omega
  rw [h]

/-- The bias block of point t: pair t / 2's row of biases. -/
theorem biasBlock_apply (c : Dev nD) (t : Fin cfg0.N) (u v : Fin 1) (j : Fin 1024) (g : Fin 64) (hg : g.val = t.val / 2) :
    (iblk m c 5 t : Vec Ideal S1x1x1024 .f32) (ix3 u v j) = (V m c main_v8 : S64x1x1024.Idx → EReal) (ix3 g (0 : Fin 1) j) := by
  obtain ⟨-, -, -, -, -, ⟨h0, h1, h2⟩, -, -, -, -⟩ := idx_facts t
  show V m c main_v8 (((cfg0.win 5).blk t).view.emb (ix3 u v j)) = _
  have h : ((cfg0.win 5).blk t).view.emb (ix3 u v j) = ix3 g (0 : Fin 1) j := by
    funext a; apply Fin.ext
    match a with
    | ⟨0, _⟩ => show win0_5.index t (0 : Fin 3) * 1 + 1 * u.val = g.val; have := u.isLt; omega
    | ⟨1, _⟩ => show win0_5.index t (1 : Fin 3) * 1 + 1 * v.val = 0; have := v.isLt; omega
    | ⟨2, _⟩ => show win0_5.index t (2 : Fin 3) * 1024 + 1 * j.val = j.val; omega
  rw [h]

/-- The scale block of every point: the one scale. -/
theorem scaleBlock_apply (c : Dev nD) (t : Fin cfg0.N) (u v : Fin 1) :
    (iblk m c 6 t : Vec Ideal S1x1 .f32) (ix2 u v) = (V m c main_v9 : S1x1.Idx → EReal) (ix2 (0 : Fin 1) (0 : Fin 1)) := by
  obtain ⟨-, -, -, -, -, -, ⟨h0, h1⟩, -, -, -⟩ := idx_facts t
  show V m c main_v9 (((cfg0.win 6).blk t).view.emb (ix2 u v)) = _
  have h : ((cfg0.win 6).blk t).view.emb (ix2 u v) = ix2 (0 : Fin 1) (0 : Fin 1) := by
    funext a; apply Fin.ext
    match a with
    | ⟨0, _⟩ => show win0_6.index t (0 : Fin 2) * 1 + 1 * u.val = 0; have := u.isLt; omega
    | ⟨1, _⟩ => show win0_6.index t (1 : Fin 2) * 1 + 1 * v.val = 0; have := v.isLt; omega
  rw [h]

theorem rawScore_congr {dk : ℕ} {q q' k k' : Fin dk → EReal} {s s' p p' w w' : EReal} (hq : q = q') (hk : k = k')
    (hs : s = s') (hp : p = p') (hw : w = w') : rawScore q k s p w = rawScore q' k' s' p' w' := by
  subst hq hk hs hp hw; rfl

/-- Row p of point t's scores, computed from its blocks, is row r = 512·(t % 2) + p of pair g = t / 2's scores. -/
theorem blockScores_eq (c : Dev nD) (t : Fin cfg0.N) (p : Fin 512) (g : Fin 64) (r : Fin 1024)
    (hg : g.val = t.val / 2) (hr : r.val = t.val % 2 * 512 + p.val) (j : Fin 1024) :
    blockScoreRow (iblk m c 0 t) (iblk m c 1 t) (iblk m c 3 t) (iblk m c 4 t) (iblk m c 5 t) (iblk m c 6 t) p j
      = scoreRow (V m c main_v0) (V m c main_v1) (V m c main_v3) (V m c main_arg4) (V m c main_v8) (V m c main_v9) g r j := by
  unfold blockScoreRow scoreRow
  exact congrArg₂ (· + ·)
    (rawScore_congr (funext fun d => queryBlock_apply m c t 0 p d g r hg hr) (funext fun d => keyBlock_apply m c t 0 d j g hg)
      (scaleBlock_apply m c t 0 0) (carriedBlock_apply m c t 0 p j g r hg hr) (maskBlock_apply m c t 0 p j r hr))
    (biasBlock_apply m c t 0 0 j g hg)

/-- What point t writes back to the scores array is its block of the scores. -/
theorem flushedScores_eq (c : Dev nD) (t : Fin cfg0.N) :
    (dats m 0 c).flushed 9 t = ((cfg0.win 9).blk t).view.read (Elt Ideal) (scoresArr (V m c main_v0) (V m c main_v1) (V m c main_v3) (V m c main_arg4) (V m c main_v8) (V m c main_v9)) := by
  show (cfg0.win 9).cut (grid0.coords t) ((dats m 0 c).after 9 t) = _
  rw [after0_9]
  have hN : cfg0.N = 128 := N_0
  have ht : t.val < 128 := hN ▸ t.isLt
  obtain ⟨-, -, -, -, -, -, -, -, -, ⟨h0, h1, h2⟩⟩ := idx_facts t
  funext y
  obtain ⟨u, p, j, rfl⟩ : ∃ (u : Fin 1) (p : Fin 512) (j : Fin 1024), y = ix3 u p j := ⟨y 0, y 1, y 2, eq_ix3 y⟩
  have hp : p.val < 512 := p.isLt
  have e : ((cfg0.win 9).blk t).view.emb (ix3 u p j)
      = ix3 (⟨t.val / 2, by omega⟩ : Fin 64) (⟨t.val % 2 * 512 + p.val, by omega⟩ : Fin 1024) j := by
    funext a; apply Fin.ext
    match a with
    | ⟨0, _⟩ => show win0_9.index t (0 : Fin 3) * 1 + 1 * u.val = t.val / 2; have := u.isLt; omega
    | ⟨1, _⟩ => show win0_9.index t (1 : Fin 3) * 512 + 1 * p.val = t.val % 2 * 512 + p.val; omega
    | ⟨2, _⟩ => show win0_9.index t (2 : Fin 3) * 1024 + 1 * j.val = j.val; omega
  show out0_9 (iblk m c 0 t) (iblk m c 1 t) (iblk m c 2 t) (iblk m c 3 t) (iblk m c 4 t) (iblk m c 5 t) (iblk m c 6 t) (ix3 u p j)
    = scoresArr (V m c main_v0) (V m c main_v1) (V m c main_v3) (V m c main_arg4) (V m c main_v8) (V m c main_v9) (((cfg0.win 9).blk t).view.emb (ix3 u p j))
  rw [e]
  refine (scoresOut_apply (iblk m c 0 t) (iblk m c 1 t) (iblk m c 2 t) (iblk m c 3 t) (iblk m c 4 t) (iblk m c 5 t) (iblk m c 6 t) u p j).trans ?_
  exact blockScores_eq m c t p _ _ rfl rfl j

/-- What point t writes back to the weights array is its block of the row-wise softmax of the scores. -/
theorem flushedWeights_eq (c : Dev nD) (t : Fin cfg0.N) :
    (dats m 0 c).flushed 8 t = ((cfg0.win 8).blk t).view.read (Elt Ideal) (weightsArr (V m c main_v0) (V m c main_v1) (V m c main_v3) (V m c main_arg4) (V m c main_v8) (V m c main_v9)) := by
  show (cfg0.win 8).cut (grid0.coords t) ((dats m 0 c).after 8 t) = _
  rw [after0_8]
  have hN : cfg0.N = 128 := N_0
  have ht : t.val < 128 := hN ▸ t.isLt
  obtain ⟨-, -, -, -, -, -, -, -, ⟨h0, h1, h2⟩, -⟩ := idx_facts t
  funext y
  obtain ⟨u, p, j, rfl⟩ : ∃ (u : Fin 1) (p : Fin 512) (j : Fin 1024), y = ix3 u p j := ⟨y 0, y 1, y 2, eq_ix3 y⟩
  have hp : p.val < 512 := p.isLt
  have e : ((cfg0.win 8).blk t).view.emb (ix3 u p j)
      = ix3 (⟨t.val / 2, by omega⟩ : Fin 64) (⟨t.val % 2 * 512 + p.val, by omega⟩ : Fin 1024) j := by
    funext a; apply Fin.ext
    match a with
    | ⟨0, _⟩ => show win0_8.index t (0 : Fin 3) * 1 + 1 * u.val = t.val / 2; have := u.isLt; omega
    | ⟨1, _⟩ => show win0_8.index t (1 : Fin 3) * 512 + 1 * p.val = t.val % 2 * 512 + p.val; omega
    | ⟨2, _⟩ => show win0_8.index t (2 : Fin 3) * 1024 + 1 * j.val = j.val; omega
  show out0_8 (iblk m c 0 t) (iblk m c 1 t) (iblk m c 2 t) (iblk m c 3 t) (iblk m c 4 t) (iblk m c 5 t) (iblk m c 6 t) (ix3 u p j)
    = weightsArr (V m c main_v0) (V m c main_v1) (V m c main_v3) (V m c main_arg4) (V m c main_v8) (V m c main_v9) (((cfg0.win 8).blk t).view.emb (ix3 u p j))
  rw [e]
  refine (weightsOut_apply (iblk m c 0 t) (iblk m c 1 t) (iblk m c 2 t) (iblk m c 3 t) (iblk m c 4 t) (iblk m c 5 t) (iblk m c 6 t) u p j).trans ?_
  exact congrArg (fun s : Fin 1024 → EReal => softmaxRow s j) (funext fun k => blockScores_eq m c t p _ _ rfl rfl k)

/-- What point t writes back to the output array is its block of the weights against the values. -/
theorem flushedOut_eq (c : Dev nD) (t : Fin cfg0.N) :
    (dats m 0 c).flushed 7 t = ((cfg0.win 7).blk t).view.read (Elt Ideal) (outArr (V m c main_v0) (V m c main_v1) (V m c main_v2) (V m c main_v3) (V m c main_arg4) (V m c main_v8) (V m c main_v9)) := by
  show (cfg0.win 7).cut (grid0.coords t) ((dats m 0 c).after 7 t) = _
  rw [after0_7]
  have hN : cfg0.N = 128 := N_0
  have ht : t.val < 128 := hN ▸ t.isLt
  obtain ⟨-, -, -, -, -, -, -, ⟨h0, h1, h2⟩, -, -⟩ := idx_facts t
  funext y
  obtain ⟨u, p, j, rfl⟩ : ∃ (u : Fin 1) (p : Fin 512) (j : Fin 64), y = ix3 u p j := ⟨y 0, y 1, y 2, eq_ix3 y⟩
  have hp : p.val < 512 := p.isLt
  have e : ((cfg0.win 7).blk t).view.emb (ix3 u p j)
      = ix3 (⟨t.val / 2, by omega⟩ : Fin 64) (⟨t.val % 2 * 512 + p.val, by omega⟩ : Fin 1024) j := by
    funext a; apply Fin.ext
    match a with
    | ⟨0, _⟩ => show win0_7.index t (0 : Fin 3) * 1 + 1 * u.val = t.val / 2; have := u.isLt; omega
    | ⟨1, _⟩ => show win0_7.index t (1 : Fin 3) * 512 + 1 * p.val = t.val % 2 * 512 + p.val; omega
    | ⟨2, _⟩ => show win0_7.index t (2 : Fin 3) * 64 + 1 * j.val = j.val; omega
  show out0_7 (iblk m c 0 t) (iblk m c 1 t) (iblk m c 2 t) (iblk m c 3 t) (iblk m c 4 t) (iblk m c 5 t) (iblk m c 6 t) (ix3 u p j)
    = outArr (V m c main_v0) (V m c main_v1) (V m c main_v2) (V m c main_v3) (V m c main_arg4) (V m c main_v8) (V m c main_v9) (((cfg0.win 7).blk t).view.emb (ix3 u p j))
  rw [e]
  refine (out_apply (iblk m c 0 t) (iblk m c 1 t) (iblk m c 2 t) (iblk m c 3 t) (iblk m c 4 t) (iblk m c 5 t) (iblk m c 6 t) u p j).trans ?_
  exact congrArg₂ weighted (congrArg softmaxRow (funext fun k => blockScores_eq m c t p _ _ rfl rfl k))
    (funext fun k => valueBlock_apply m c t 0 k j _ rfl)

/-- An index of the array is in point t's block of window 9 iff each coordinate is in the block's range on its axis. -/
theorem mem_block9 (t : Fin cfg0.N) (i : S64x1024x1024.Idx) :
    i ∈ ((cfg0.win 9).blk t).view.set ↔ ∀ a : Fin 3, win0_9.index t a * S1x512x1024.size a ≤ (i a).val
      ∧ (i a).val < win0_9.index t a * S1x512x1024.size a + S1x512x1024.size a := by
  show i ∈ ((View.whole main_v10_2).slice (win0_9.rect t)).set ↔ _
  rw [View.set_slice_whole, Rect.mem_set_unit]
  exact Iff.rfl

/-- Every index of the array lies in the block of the point with its pair and its row's half. -/
theorem cover9 (i : S64x1024x1024.Idx) :
    ∃ t : Fin cfg0.N, (cfg0.win 9).flush t = true ∧ i ∈ ((cfg0.win 9).blk t).view.set := by
  have hN : cfg0.N = 128 := N_0
  have hi0 : (i 0).val < 64 := (i 0).isLt
  have hi1 : (i 1).val < 1024 := (i 1).isLt
  have hi2 : (i 2).val < 1024 := (i 2).isLt
  obtain ⟨t, ht⟩ : ∃ t : Fin cfg0.N, t.val = (i 0).val * 2 + (i 1).val / 512 := ⟨⟨(i 0).val * 2 + (i 1).val / 512, by omega⟩, rfl⟩
  obtain ⟨-, -, -, -, -, -, -, -, -, ⟨h0, h1, h2⟩⟩ := idx_facts t
  refine ⟨t, flush0_9 t, ?_⟩
  rw [mem_block9]
  intro a
  match a with
  | ⟨0, _⟩ =>
    show win0_9.index t (0 : Fin 3) * 1 ≤ (i 0).val ∧ (i 0).val < win0_9.index t (0 : Fin 3) * 1 + 1
    omega
  | ⟨1, _⟩ =>
    show win0_9.index t (1 : Fin 3) * 512 ≤ (i 1).val ∧ (i 1).val < win0_9.index t (1 : Fin 3) * 512 + 512
    omega
  | ⟨2, _⟩ =>
    show win0_9.index t (2 : Fin 3) * 1024 ≤ (i 2).val ∧ (i 2).val < win0_9.index t (2 : Fin 3) * 1024 + 1024
    omega

/-- An index of the array is in point t's block of window 8 iff each coordinate is in the block's range on its axis. -/
theorem mem_block8 (t : Fin cfg0.N) (i : S64x1024x1024.Idx) :
    i ∈ ((cfg0.win 8).blk t).view.set ↔ ∀ a : Fin 3, win0_8.index t a * S1x512x1024.size a ≤ (i a).val
      ∧ (i a).val < win0_8.index t a * S1x512x1024.size a + S1x512x1024.size a := by
  show i ∈ ((View.whole main_v10_1).slice (win0_8.rect t)).set ↔ _
  rw [View.set_slice_whole, Rect.mem_set_unit]
  exact Iff.rfl

/-- Every index of the array lies in the block of the point with its pair and its row's half. -/
theorem cover8 (i : S64x1024x1024.Idx) :
    ∃ t : Fin cfg0.N, (cfg0.win 8).flush t = true ∧ i ∈ ((cfg0.win 8).blk t).view.set := by
  have hN : cfg0.N = 128 := N_0
  have hi0 : (i 0).val < 64 := (i 0).isLt
  have hi1 : (i 1).val < 1024 := (i 1).isLt
  have hi2 : (i 2).val < 1024 := (i 2).isLt
  obtain ⟨t, ht⟩ : ∃ t : Fin cfg0.N, t.val = (i 0).val * 2 + (i 1).val / 512 := ⟨⟨(i 0).val * 2 + (i 1).val / 512, by omega⟩, rfl⟩
  obtain ⟨-, -, -, -, -, -, -, -, ⟨h0, h1, h2⟩, -⟩ := idx_facts t
  refine ⟨t, flush0_8 t, ?_⟩
  rw [mem_block8]
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 512 ≤ (i 1).val ∧ (i 1).val < win0_8.index t (1 : Fin 3) * 512 + 512
    omega
  | ⟨2, _⟩ =>
    show win0_8.index t (2 : Fin 3) * 1024 ≤ (i 2).val ∧ (i 2).val < win0_8.index t (2 : Fin 3) * 1024 + 1024
    omega

/-- An index of the array is in point t's block of window 7 iff each coordinate is in the block's range on its axis. -/
theorem mem_block7 (t : Fin cfg0.N) (i : S64x1024x64.Idx) :
    i ∈ ((cfg0.win 7).blk t).view.set ↔ ∀ a : Fin 3, win0_7.index t a * S1x512x64.size a ≤ (i a).val
      ∧ (i a).val < win0_7.index t a * S1x512x64.size a + S1x512x64.size a := by
  show i ∈ ((View.whole main_v10_0).slice (win0_7.rect t)).set ↔ _
  rw [View.set_slice_whole, Rect.mem_set_unit]
  exact Iff.rfl

/-- Every index of the array lies in the block of the point with its pair and its row's half. -/
theorem cover7 (i : S64x1024x64.Idx) :
    ∃ t : Fin cfg0.N, (cfg0.win 7).flush t = true ∧ i ∈ ((cfg0.win 7).blk t).view.set := by
  have hN : cfg0.N = 128 := N_0
  have hi0 : (i 0).val < 64 := (i 0).isLt
  have hi1 : (i 1).val < 1024 := (i 1).isLt
  have hi2 : (i 2).val < 64 := (i 2).isLt
  obtain ⟨t, ht⟩ : ∃ t : Fin cfg0.N, t.val = (i 0).val * 2 + (i 1).val / 512 := ⟨⟨(i 0).val * 2 + (i 1).val / 512, by omega⟩, rfl⟩
  obtain ⟨-, -, -, -, -, -, -, ⟨h0, h1, h2⟩, -, -⟩ := idx_facts t
  refine ⟨t, flush0_7 t, ?_⟩
  rw [mem_block7]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 512 ≤ (i 1).val ∧ (i 1).val < win0_7.index t (1 : Fin 3) * 512 + 512
    omega
  | ⟨2, _⟩ =>
    show win0_7.index t (2 : Fin 3) * 64 ≤ (i 2).val ∧ (i 2).val < win0_7.index t (2 : Fin 3) * 64 + 64
    omega

/-- The scores array after the run. -/
theorem finalScores (c : Dev nD) : (dats m 0 c).arrAt 9 cfg0.N = scoresArr (V m c main_v0) (V m c main_v1) (V m c main_v3) (V m c main_arg4) (V m c main_v8) (V m c main_v9) :=
  (dats m 0 c).arrAt_eq_of_cover 9 _ (fun t _ => flushedScores_eq m c t) cover9

/-- The weights array after the run. -/
theorem finalWeights (c : Dev nD) : (dats m 0 c).arrAt 8 cfg0.N = weightsArr (V m c main_v0) (V m c main_v1) (V m c main_v3) (V m c main_arg4) (V m c main_v8) (V m c main_v9) :=
  (dats m 0 c).arrAt_eq_of_cover 8 _ (fun t _ => flushedWeights_eq m c t) cover8

/-- The output array after the run. -/
theorem finalOut (c : Dev nD) : (dats m 0 c).arrAt 7 cfg0.N = outArr (V m c main_v0) (V m c main_v1) (V m c main_v2) (V m c main_v3) (V m c main_arg4) (V m c main_v8) (V m c main_v9) :=
  (dats m 0 c).arrAt_eq_of_cover 7 _ (fun t _ => flushedOut_eq m c t) cover7

end Cert.KernelIdeal.Whole

end
-- ==== Proof.KernelArrays.lean ====
/-
  The arrays the kernel's region is launched on, as terms of the program's arguments.

  Before the region the host re-lays the four-dimensional arguments as (batch·head)-major three-dimensional arrays, turns
  the key-padding mask into an additive bias (−∞ on a padded key, 0 elsewhere) spread over the heads, and makes the scale
  a [1, 1] array. The additive mask is passed as it is.
-/
import proofs.«101433_j455266533973_2_alg».proof.Proof.Gen.KernelIdeal.Frame
import Idealize.ShloMosaic.Lib.StableHlo.Run
import Idealize.ShloMosaic.PureOps.Ideal
import Idealize.ShloMosaic.Lib.Pipeline.Value

noncomputable section

namespace Cert.KernelIdeal.Arrays

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The queries as launched: the argument re-laid with batch and head merged. -/
theorem queries_eq (c : Dev nD) : (V m c main_v0 : S64x1024x64.Idx → EReal)
    = shapeCast S64x1024x64 (m ((c : Thread nD τ).loc main_arg0) : S4x16x1024x64.Idx → EReal) shapeCasts_S4x16x1024x64_S64x1024x64 := by
  dsimp only [Gen.V, Gen.V0]
  simp only [Gen.hostOps0, Gen.hostOps0_1, Gen.hostOps0_2, List.flatten_cons, List.flatten_nil, List.append_nil,
    List.cons_append, List.nil_append]
  after_results
  rfl

/-- The keys as launched: the argument re-laid with batch and head merged. -/
theorem keys_eq (c : Dev nD) : (V m c main_v1 : S64x64x1024.Idx → EReal)
    = shapeCast S64x64x1024 (m ((c : Thread nD τ).loc main_arg1) : S4x16x64x1024.Idx → EReal) shapeCasts_S4x16x64x1024_S64x64x1024 := by
  dsimp only [Gen.V, Gen.V0]
  simp only [Gen.hostOps0, Gen.hostOps0_1, Gen.hostOps0_2, List.flatten_cons, List.flatten_nil, List.append_nil,
    List.cons_append, List.nil_append]
  after_results
  rfl

/-- The values as launched: the argument re-laid with batch and head merged. -/
theorem values_eq (c : Dev nD) : (V m c main_v2 : S64x1024x64.Idx → EReal)
    = shapeCast S64x1024x64 (m ((c : Thread nD τ).loc main_arg2) : S4x16x1024x64.Idx → EReal) shapeCasts_S4x16x1024x64_S64x1024x64 := by
  dsimp only [Gen.V, Gen.V0]
  simp only [Gen.hostOps0, Gen.hostOps0_1, Gen.hostOps0_2, List.flatten_cons, List.flatten_nil, List.append_nil,
    List.cons_append, List.nil_append]
  after_results
  rfl

/-- The carried-over scores as launched: the argument re-laid with batch and head merged. -/
theorem carried_eq (c : Dev nD) : (V m c main_v3 : S64x1024x1024.Idx → EReal)
    = shapeCast S64x1024x1024 (m ((c : Thread nD τ).loc main_arg3) : S4x16x1024x1024.Idx → EReal) shapeCasts_S4x16x1024x1024_S64x1024x1024 := by
  dsimp only [Gen.V, Gen.V0]
  simp only [Gen.hostOps0, Gen.hostOps0_1, Gen.hostOps0_2, List.flatten_cons, List.flatten_nil, List.append_nil,
    List.cons_append, List.nil_append]
  after_results
  rfl

/-- The scale as launched: the scalar argument as a [1, 1] array. -/
theorem scale_eq (c : Dev nD) : (V m c main_v9 : S1x1.Idx → EReal)
    = shapeCast S1x1 (m ((c : Thread nD τ).loc main_arg6) : S_.Idx → EReal) shapeCasts_S_S1x1 := by
  dsimp only [Gen.V, Gen.V0]
  simp only [Gen.hostOps0, Gen.hostOps0_1, Gen.hostOps0_2, List.flatten_cons, List.flatten_nil, List.append_nil,
    List.cons_append, List.nil_append]
  after_results
  rfl

/-- The key-padding bias as launched: −∞ on a padded key and 0 elsewhere, spread over the heads, with a unit axis for the
    query row. -/
theorem bias_eq (c : Dev nD) : (V m c main_v8 : S64x1x1024.Idx → EReal)
    = shapeCast S64x1x1024
        (broadcastInDim S4x16x1024 ![0, 1, 2] bcast_S4x1x1024_S4x16x1024_0_1_2
          (broadcastInDim S4x1x1024 ![0, 2] bcast_S4x1024_S4x1x1024_0_2
            (select (m ((c : Thread nD τ).loc main_arg5) : S4x1024.Idx → BitVec 1)
              (broadcastInDim S4x1024 ![] bcast_S_S4x1024 (constant (F := Ideal) S_ .f32 0xFF800000#32))
              (broadcastInDim S4x1024 ![] bcast_S_S4x1024 (constant (F := Ideal) S_ .f32 0x00000000#32)))))
        shapeCasts_S4x16x1024_S64x1x1024 := by
  dsimp only [Gen.V, Gen.V0]
  simp only [Gen.hostOps0, Gen.hostOps0_1, Gen.hostOps0_2, List.flatten_cons, List.flatten_nil, List.append_nil,
    List.cons_append, List.nil_append]
  after_results
  rfl

/-- The additive mask is launched as it is. -/
theorem mask_eq (c : Dev nD) : V m c main_arg4 = m ((c : Thread nD τ).loc main_arg4) := V_main_arg4 m c

end Cert.KernelIdeal.Arrays

end
-- ==== Proof.AttnFour.lean ====
/-
  The three results of attention over [batch, head, query, key] arrays, as whole-array functions of the arguments.

  Entry (b, h, r, j) of the scores is −∞ where key j of batch b is padded and the unmasked score elsewhere; row (b, h, r)
  of the weights is the softmax of that row of scores; entry (b, h, r, d) of the output is that row of weights against
  column d of the values of (b, h).
-/
import proofs.«101433_j455266533973_2_alg».proof.Proof.AttnSpec
import Idealize.ShloMosaic.Lib.ValueIdx

noncomputable section

open scoped BigOperators

namespace Cert.Attention

open Idealize.ShloMosaic Idealize.ShloMosaic.ValueIdx

abbrev QShape : Shape := ⟨4, ![4, 16, 1024, 64]⟩
abbrev KShape : Shape := ⟨4, ![4, 16, 64, 1024]⟩
abbrev SShape : Shape := ⟨4, ![4, 16, 1024, 1024]⟩
abbrev MShape : Shape := ⟨3, ![1, 1024, 1024]⟩
abbrev PadShape : Shape := ⟨2, ![4, 1024]⟩
abbrev ScalarShape : Shape := ⟨0, ![]⟩

/-- One entry of the scores: −∞ on a padded key, the unmasked score elsewhere. -/
def score4 (q : QShape.Idx → EReal) (k : KShape.Idx → EReal) (prev : SShape.Idx → EReal) (mask : MShape.Idx → EReal)
    (pad : PadShape.Idx → BitVec 1) (scale : ScalarShape.Idx → EReal) (b : Fin 4) (h : Fin 16) (r : Fin 1024) (j : Fin 1024) : EReal :=
  Scalar.select (pad (ix2 b j)) (Ideal.ofBits .f32 0xFF800000#32)
    (rawScore (fun d : Fin 64 => q (ix4 b h r d)) (fun d : Fin 64 => k (ix4 b h d j)) (scale ix0) (prev (ix4 b h r j))
      (mask (ix3 (0 : Fin 1) r j)))

/-- The scores. -/
def scores4 (q : QShape.Idx → EReal) (k : KShape.Idx → EReal) (prev : SShape.Idx → EReal) (mask : MShape.Idx → EReal)
    (pad : PadShape.Idx → BitVec 1) (scale : ScalarShape.Idx → EReal) : SShape.Idx → EReal :=
  fun i => score4 q k prev mask pad scale (i 0) (i 1) (i 2) (i 3)

/-- The weights: the softmax of each row of scores. -/
def weights4 (q : QShape.Idx → EReal) (k : KShape.Idx → EReal) (prev : SShape.Idx → EReal) (mask : MShape.Idx → EReal)
    (pad : PadShape.Idx → BitVec 1) (scale : ScalarShape.Idx → EReal) : SShape.Idx → EReal :=
  fun i => softmaxRow (score4 q k prev mask pad scale (i 0) (i 1) (i 2)) (i 3)

/-- The output: each row of weights against the columns of the values. -/
def out4 (q : QShape.Idx → EReal) (k : KShape.Idx → EReal) (v : QShape.Idx → EReal) (prev : SShape.Idx → EReal)
    (mask : MShape.Idx → EReal) (pad : PadShape.Idx → BitVec 1) (scale : ScalarShape.Idx → EReal) : QShape.Idx → EReal :=
  fun i => weighted (softmaxRow (score4 q k prev mask pad scale (i 0) (i 1) (i 2)))
    (fun j : Fin 1024 => v (ix4 (i 0) (i 1) j (i 3)))

end Cert.Attention

end
-- ==== Proof.LibLeadingAxes.lean ====
/-
  Merging the two leading axes of an array into one, and splitting them back, read at an index written by coordinates.

  A program that works on (batch, head) pairs re-lays a [a, b, c, d] array as [a·b, c, d] before its kernel and the result
  back afterwards. Both re-layings keep the row-major position, so entry (g, r, s) of the merged array with g = p·b + q is
  entry (p, q, r, s) of the four-dimensional one, for any extents (the merged extent n is whatever the cast's shape fact
  makes it; only the position arithmetic is used).
-/
import Idealize.ShloMosaic.Lib.Pipeline.Value
import Idealize.ShloMosaic.Lib.ValueIdx

noncomputable section

namespace Cert.LeadingAxes

open Idealize.ShloMosaic Idealize.ShloMosaic.ValueIdx

/-- Merging the two leading axes [a, b, c, d] → [n, c, d] (n = a·b): entry (g, r, s) with g = p·b + q is entry
    (p, q, r, s). -/
theorem merge_apply {α : Type} {a b c d n : ℕ} (x : (⟨4, ![a, b, c, d]⟩ : Shape).Idx → α)
    (hc : (⟨4, ![a, b, c, d]⟩ : Shape).ShapeCasts ⟨3, ![n, c, d]⟩) (p : Fin a) (q : Fin b) (r : Fin c) (s : Fin d)
    (g : Fin n) (hg : g.val = p.val * b + q.val) :
    shapeCast ⟨3, ![n, c, d]⟩ x hc (ix3 g r s) = x (ix4 p q r s) :=
  shapeCast_apply x hc _ _ (by
    rw [Shape.rowMajor_val_four, Shape.rowMajor_val_three]
    show ((p.val * b + q.val) * c + r.val) * d + s.val = (g.val * c + r.val) * d + s.val
    rw [hg])

/-- Splitting the leading axis [n, c, d] → [a, b, c, d] (n = a·b): entry (p, q, r, s) is entry (p·b + q, r, s). -/
theorem split_apply {α : Type} {a b c d n : ℕ} (x : (⟨3, ![n, c, d]⟩ : Shape).Idx → α)
    (hc : (⟨3, ![n, c, d]⟩ : Shape).ShapeCasts ⟨4, ![a, b, c, d]⟩) (p : Fin a) (q : Fin b) (r : Fin c) (s : Fin d)
    (g : Fin n) (hg : g.val = p.val * b + q.val) :
    shapeCast ⟨4, ![a, b, c, d]⟩ x hc (ix4 p q r s) = x (ix3 g r s) :=
  shapeCast_apply x hc _ _ (by
    rw [Shape.rowMajor_val_four, Shape.rowMajor_val_three]
    show (g.val * c + r.val) * d + s.val = ((p.val * b + q.val) * c + r.val) * d + s.val
    rw [hg])

end Cert.LeadingAxes

end
-- ==== Proof.KernelRun.lean ====
/-
  The kernel's three results after the run, as whole-array functions of the program's arguments.

  After the region the host splits the leading (batch·head) axis of each output array back into batch and head. Read at an
  entry (b, h, r, ·) that is the array at (16·b + h, r, ·); the launched arrays are the arguments merged the same way, and
  the padding bias is −∞ on a padded key and 0 elsewhere, so every entry is the attention term of the arguments.
-/
import proofs.«101433_j455266533973_2_alg».proof.Proof.Gen.KernelIdeal.Frame
import proofs.«101433_j455266533973_2_alg».proof.Proof.KernelWhole
import proofs.«101433_j455266533973_2_alg».proof.Proof.KernelArrays
import proofs.«101433_j455266533973_2_alg».proof.Proof.AttnFour
import proofs.«101433_j455266533973_2_alg».proof.Proof.LibLeadingAxes
import Idealize.ShloMosaic.Lib.StableHlo.Run
import Idealize.ShloMosaic.Lib.Pipeline.Value

noncomputable section

open scoped BigOperators

namespace Cert.KernelIdeal.Results

open Cert.KernelIdeal Cert.KernelIdeal.Gen Cert.KernelIdeal.Whole Cert.KernelIdeal.Arrays Idealize.ShloMosaic Idealize.ShloMosaic.TcCoe
open Idealize.SL.Sem Idealize.ShloMosaic.ValueIdx Cert.Attention Cert.LeadingAxes Idealize.ShloMosaic.StableHlo
open Idealize.ShloMosaic.Pipeline (Dat)

variable (m : (ℓ : Loc nD τ sig) → Buf (Elt Ideal) ℓ) (ρ : Dev nD → PrngReg)

/-- The output result: the output array with its leading axis split into batch and head. -/
theorem tailOut (c : Dev nD) :
    (Pipeline.afterTail₀ cfgs (dats m) 0 (V0 m) [hostOps1] c main_v11 : S4x16x1024x64.Idx → EReal)
      = shapeCast S4x16x1024x64 (outArr (V m c main_v0) (V m c main_v1) (V m c main_v2) (V m c main_v3) (V m c main_arg4) (V m c main_v8) (V m c main_v9)) shapeCasts_S64x1024x64_S4x16x1024x64 := by
  have e : Pipeline.withArrays (cfgs 0).spec c (V0 m c) (fun w => (dats m 0 c).arrAt w (cfgs 0).N) (Proc.devRef .tc main_v10_0)
      = outArr (V m c main_v0) (V m c main_v1) (V m c main_v2) (V m c main_v3) (V m c main_arg4) (V m c main_v8) (V m c main_v9) :=
    (Pipeline.withArrays_arr spec0 launch0.win.arr_inj c _ _ 7).trans (finalOut m c)
  unfold Pipeline.afterTail₀
  show StableHlo.after hostOps1 _ (Proc.devRef .tc main_v11) = _
  after_results
  rw [e]
  rfl

/-- The weights result: the weights array with its leading axis split into batch and head. -/
theorem tailWeights (c : Dev nD) :
    (Pipeline.afterTail₀ cfgs (dats m) 0 (V0 m) [hostOps1] c main_v12 : S4x16x1024x1024.Idx → EReal)
      = shapeCast S4x16x1024x1024 (weightsArr (V m c main_v0) (V m c main_v1) (V m c main_v3) (V m c main_arg4) (V m c main_v8) (V m c main_v9)) shapeCasts_S64x1024x1024_S4x16x1024x1024 := by
  have e : Pipeline.withArrays (cfgs 0).spec c (V0 m c) (fun w => (dats m 0 c).arrAt w (cfgs 0).N) (Proc.devRef .tc main_v10_1)
      = weightsArr (V m c main_v0) (V m c main_v1) (V m c main_v3) (V m c main_arg4) (V m c main_v8) (V m c main_v9) :=
    (Pipeline.withArrays_arr spec0 launch0.win.arr_inj c _ _ 8).trans (finalWeights m c)
  unfold Pipeline.afterTail₀
  show StableHlo.after hostOps1 _ (Proc.devRef .tc main_v12) = _
  after_results
  rw [e]
  rfl

/-- The scores result: the scores array with its leading axis split into batch and head. -/
theorem tailScores (c : Dev nD) :
    (Pipeline.afterTail₀ cfgs (dats m) 0 (V0 m) [hostOps1] c main_v13 : S4x16x1024x1024.Idx → EReal)
      = shapeCast S4x16x1024x1024 (scoresArr (V m c main_v0) (V m c main_v1) (V m c main_v3) (V m c main_arg4) (V m c main_v8) (V m c main_v9)) shapeCasts_S64x1024x1024_S4x16x1024x1024 := by
  have e : Pipeline.withArrays (cfgs 0).spec c (V0 m c) (fun w => (dats m 0 c).arrAt w (cfgs 0).N) (Proc.devRef .tc main_v10_2)
      = scoresArr (V m c main_v0) (V m c main_v1) (V m c main_v3) (V m c main_arg4) (V m c main_v8) (V m c main_v9) :=
    (Pipeline.withArrays_arr spec0 launch0.win.arr_inj c _ _ 9).trans (finalScores m c)
  unfold Pipeline.afterTail₀
  show StableHlo.after hostOps1 _ (Proc.devRef .tc main_v13) = _
  after_results
  rw [e]
  rfl

/-- The launched padding bias of pair g = 16·b + h at key j: −∞ if key j of batch b is padded, 0 otherwise. -/
theorem bias_apply (c : Dev nD) (b : Fin 4) (h : Fin 16) (j : Fin 1024) (g : Fin 64) (hg : g.val = b.val * 16 + h.val) :
    (V m c main_v8 : S64x1x1024.Idx → EReal) (ix3 g (0 : Fin 1) j)
      = Scalar.select ((m ((c : Thread nD τ).loc main_arg5) : S4x1024.Idx → BitVec 1) (ix2 b j))
          (Ideal.ofBits .f32 0xFF800000#32) (Ideal.ofBits .f32 0x00000000#32) := by
  rw [bias_eq]
  refine (shapeCast_apply _ shapeCasts_S4x16x1024_S64x1x1024 (ix3 g (0 : Fin 1) j) (ix3 b h j) (by
    rw [Shape.rowMajor_val_three, Shape.rowMajor_val_three]
    show (b.val * 16 + h.val) * 1024 + j.val = (g.val * 1 + 0) * 1024 + j.val
    rw [hg]; omega)).trans ?_
  refine (broadcastInDim_apply _ bcast_S4x1x1024_S4x16x1024_0_1_2 _ (ix3 b h j) (ix3 b (0 : Fin 1) j) (fun a => match a with
    | ⟨0, _⟩ => by show b.val = if (4 : Nat) = 1 then 0 else b.val; rw [if_neg (by decide)]
    | ⟨1, _⟩ => by show 0 = if (1 : Nat) = 1 then 0 else h.val; rw [if_pos rfl]
    | ⟨2, _⟩ => by show j.val = if (1024 : Nat) = 1 then 0 else j.val; rw [if_neg (by decide)])).trans ?_
  refine (broadcastInDim_apply _ bcast_S4x1024_S4x1x1024_0_2 _ (ix3 b (0 : Fin 1) j) (ix2 b j) (fun a => match a with
    | ⟨0, _⟩ => by show b.val = if (4 : Nat) = 1 then 0 else b.val; rw [if_neg (by decide)]
    | ⟨1, _⟩ => by show j.val = if (1024 : Nat) = 1 then 0 else j.val; rw [if_neg (by decide)])).trans ?_
  rfl

/-- Row r of pair g = 16·b + h's launched scores is row (b, h, r) of the arguments' scores: the launched arrays are the
    arguments with batch and head merged, and adding the padding bias is masking by −∞. -/
theorem launchedScore_eq (c : Dev nD) (b : Fin 4) (h : Fin 16) (r : Fin 1024) (g : Fin 64) (hg : g.val = b.val * 16 + h.val)
    (j : Fin 1024) :
    scoreRow (V m c main_v0) (V m c main_v1) (V m c main_v3) (V m c main_arg4) (V m c main_v8) (V m c main_v9) g r j = score4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) b h r j := by
  unfold scoreRow score4
  rw [bias_apply m c b h j g hg]
  refine Eq.trans (congrArg (fun x : EReal => x + Scalar.select _ _ _) ?_) (add_select_bias _ _)
  refine rawScore_congr (funext fun d => ?_) (funext fun d => ?_) ?_ ?_ ?_
  · rw [queries_eq]; exact merge_apply _ shapeCasts_S4x16x1024x64_S64x1024x64 b h r d g hg
  · rw [keys_eq]; exact merge_apply _ shapeCasts_S4x16x64x1024_S64x64x1024 b h d j g hg
  · rw [scale_eq]; exact congrArg (m ((c : Thread nD τ).loc main_arg6) : S_.Idx → EReal) (eq_ix0 _)
  · rw [carried_eq]; exact merge_apply _ shapeCasts_S4x16x1024x1024_S64x1024x1024 b h r j g hg
  · rw [mask_eq]

/-- The scores result is the arguments' scores. -/
theorem scoresResult_eq (c : Dev nD) :
    shapeCast S4x16x1024x1024 (scoresArr (V m c main_v0) (V m c main_v1) (V m c main_v3) (V m c main_arg4) (V m c main_v8) (V m c main_v9)) shapeCasts_S64x1024x1024_S4x16x1024x1024 = scores4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  funext i
  obtain ⟨b, h, r, j, rfl⟩ : ∃ (b : Fin 4) (h : Fin 16) (r : Fin 1024) (j : Fin 1024), i = ix4 b h r j := ⟨i 0, i 1, i 2, i 3, eq_ix4 i⟩
  have hb : b.val < 4 := b.isLt
  have hh : h.val < 16 := h.isLt
  refine (split_apply _ shapeCasts_S64x1024x1024_S4x16x1024x1024 b h r j (⟨b.val * 16 + h.val, by omega⟩ : Fin 64) rfl).trans ?_
  exact launchedScore_eq m c b h r _ rfl j

/-- The weights result is the arguments' weights. -/
theorem weightsResult_eq (c : Dev nD) :
    shapeCast S4x16x1024x1024 (weightsArr (V m c main_v0) (V m c main_v1) (V m c main_v3) (V m c main_arg4) (V m c main_v8) (V m c main_v9)) shapeCasts_S64x1024x1024_S4x16x1024x1024 = weights4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  funext i
  obtain ⟨b, h, r, j, rfl⟩ : ∃ (b : Fin 4) (h : Fin 16) (r : Fin 1024) (j : Fin 1024), i = ix4 b h r j := ⟨i 0, i 1, i 2, i 3, eq_ix4 i⟩
  have hb : b.val < 4 := b.isLt
  have hh : h.val < 16 := h.isLt
  refine (split_apply _ shapeCasts_S64x1024x1024_S4x16x1024x1024 b h r j (⟨b.val * 16 + h.val, by omega⟩ : Fin 64) rfl).trans ?_
  exact congrArg (fun s : Fin 1024 → EReal => softmaxRow s j) (funext fun k => launchedScore_eq m c b h r _ rfl k)

/-- The output result is the arguments' output. -/
theorem outResult_eq (c : Dev nD) :
    shapeCast S4x16x1024x64 (outArr (V m c main_v0) (V m c main_v1) (V m c main_v2) (V m c main_v3) (V m c main_arg4) (V m c main_v8) (V m c main_v9)) shapeCasts_S64x1024x64_S4x16x1024x64 = out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨b, h, r, d, rfl⟩ : ∃ (b : Fin 4) (h : Fin 16) (r : Fin 1024) (d : Fin 64), i = ix4 b h r d := ⟨i 0, i 1, i 2, i 3, eq_ix4 i⟩
  have hb : b.val < 4 := b.isLt
  have hh : h.val < 16 := h.isLt
  refine (split_apply _ shapeCasts_S64x1024x64_S4x16x1024x64 b h r d (⟨b.val * 16 + h.val, by omega⟩ : Fin 64) rfl).trans ?_
  refine congrArg₂ weighted (congrArg softmaxRow (funext fun k => launchedScore_eq m c b h r _ rfl k)) (funext fun k => ?_)
  show (V m c main_v2 : S64x1024x64.Idx → EReal) (ix3 _ k d) = _
  rw [values_eq]
  exact merge_apply _ shapeCasts_S4x16x1024x64_S64x1024x64 b h k d _ rfl

/-- The run, read: every weakly fair execution of the kernel's program ends with the three results at the attention terms
    of the arguments and the arguments unchanged. -/
theorem run : θ_run defs (onTc (τ := τ) (main (F := Ideal))) ⟨m, fun _ => 0, ρ⟩ fun r => ∀ c : Dev nD,
      r.2.mem ((c.tc : Thread nD τ).loc main_v11) = out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v12) = weights4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v13) = scores4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(((h c).2 main_v11 (Pipeline.mem_restRefs_of main_v11 (by decide) (by decide))).trans (tailOut m c)).trans (outResult_eq m c),
      (((h c).2 main_v12 (Pipeline.mem_restRefs_of main_v12 (by decide) (by decide))).trans (tailWeights m c)).trans (weightsResult_eq m c),
      (((h c).2 main_v13 (Pipeline.mem_restRefs_of main_v13 (by decide) (by decide))).trans (tailScores m c)).trans (scoresResult_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Results

end
-- ==== Proof.RefValue.lean ====
/-
  The reference's three results, as the whole-array attention terms of the arguments.

  The reference forms the unmasked scores of every (batch, head, query, key), replaces those of padded keys by −∞, takes
  each row's maximum (once more against −∞, which changes nothing), exponentiates the differences, sums each row from 0
  and divides; the output is the weights against the values. Read operation by operation at an entry these are the terms
  of the specification.
-/
import proofs.«101433_j455266533973_2_alg».proof.Proof.Gen.ReferenceIdeal.Read
import proofs.«101433_j455266533973_2_alg».proof.Proof.AttnFour
import proofs.«101433_j455266533973_2_alg».proof.Proof.LibRowMax
import Idealize.ShloMosaic.Lib.ValueIdx
import Idealize.ShloMosaic.PureOps.Ideal.Laws

noncomputable section

open scoped BigOperators

namespace Cert.ReferenceIdeal.Results

open Cert.ReferenceIdeal Cert.ReferenceIdeal.Gen Cert.ReferenceIdeal.Read Idealize.ShloMosaic Idealize.ShloMosaic.TcCoe
open Idealize.SL.Sem Idealize.ShloMosaic.ValueIdx Cert.Attention

/-- One entry of the reference's scores. -/
theorem score_apply (x0 : (⟨S4x16x1024x64, .f32⟩ : BufTy).Contents (Elt Ideal)) (x1 : (⟨S4x16x64x1024, .f32⟩ : BufTy).Contents (Elt Ideal))
    (x3 : (⟨S4x16x1024x1024, .f32⟩ : BufTy).Contents (Elt Ideal)) (x4 : (⟨S1x1024x1024, .f32⟩ : BufTy).Contents (Elt Ideal))
    (x5 : (⟨S4x1024, .i1⟩ : BufTy).Contents (Elt Ideal)) (x6 : (⟨S_, .f32⟩ : BufTy).Contents (Elt Ideal))
    (b : Fin 4) (h : Fin 16) (r : Fin 1024) (j : Fin 1024) :
    val_main_v8 (F := Ideal) x0 x1 x3 x4 x5 x6 (ix4 b h r j) = score4 x0 x1 x3 x4 x5 x6 b h r j := by
  have e5 : idx_main_v7 (idx_main_call0_v1 (ix4 b h r j)) = ix2 b j :=
    funext fun a => Fin.ext (by match a with | ⟨0, _⟩ => rfl | ⟨1, _⟩ => rfl)
  have e4 : idx_main_v4 (idx_main_v5 (ix4 b h r j)) = ix3 (0 : Fin 1) r j :=
    funext fun a => Fin.ext (by match a with | ⟨0, _⟩ => rfl | ⟨1, _⟩ => rfl | ⟨2, _⟩ => rfl)
  have el : ∀ k : Fin 64, lidx_main_v0 (ix4 b h r j) k = ix4 b h r k := fun k =>
    funext fun a => Fin.ext (by match a with | ⟨0, _⟩ => rfl | ⟨1, _⟩ => rfl | ⟨2, _⟩ => rfl | ⟨3, _⟩ => rfl)
  have er : ∀ k : Fin 64, ridx_main_v0 (ix4 b h r j) k = ix4 b h k j := fun k =>
    funext fun a => Fin.ext (by match a with | ⟨0, _⟩ => rfl | ⟨1, _⟩ => rfl | ⟨2, _⟩ => rfl | ⟨3, _⟩ => rfl)
  have e6 : idx_main_v1 (ix4 b h r j) = ix0 := eq_ix0 _
  rw [val_main_v8_apply, val_main_call0_v1_apply, val_main_v7_apply, val_main_call0_v2_apply, val_main_call0_v0_apply,
    val_main_cst_apply, val_main_v6_apply, val_main_v3_apply, val_main_v2_apply, val_main_v0_apply, val_main_v1_apply,
    val_main_v5_apply, val_main_v4_apply]
  simp only [e5, e4, el, er, e6]
  rfl

/-- One row's maximum in the reference: the running maximum of the row of scores. -/
theorem max_apply (x0 : (⟨S4x16x1024x64, .f32⟩ : BufTy).Contents (Elt Ideal)) (x1 : (⟨S4x16x64x1024, .f32⟩ : BufTy).Contents (Elt Ideal))
    (x3 : (⟨S4x16x1024x1024, .f32⟩ : BufTy).Contents (Elt Ideal)) (x4 : (⟨S1x1024x1024, .f32⟩ : BufTy).Contents (Elt Ideal))
    (x5 : (⟨S4x1024, .i1⟩ : BufTy).Contents (Elt Ideal)) (x6 : (⟨S_, .f32⟩ : BufTy).Contents (Elt Ideal))
    (b : Fin 4) (h : Fin 16) (r : Fin 1024) :
    val_main_v11 (F := Ideal) x0 x1 x3 x4 x5 x6 (ix3 b h r) = rowMax (score4 x0 x1 x3 x4 x5 x6 b h r) := by
  rw [val_main_v11_apply, val_main_v10_apply, val_main_cst_1_apply]
  unfold val_main_v9
  refine (congrArg (fun x : EReal => max (Ideal.ofBits .f32 0xFF800000#32) x)
    (Cert.RowMax.hostReduce_max_last4_apply (val_main_v8 (F := Ideal) x0 x1 x3 x4 x5 x6) (val_main_cst_0 (F := Ideal))
      reducesTo_S4x16x1024x1024_S4x16x1024_d3 (by decide) h_S_ b h r)).trans ?_
  refine (max_negInf _).trans ?_
  unfold rowMax
  exact congrArg (fun f : Fin 1024 → EReal => Finset.fold max (Ideal.ofBits .f32 0xFF800000#32) f (Finset.univ : Finset (Fin 1024)))
    (funext fun k => score_apply x0 x1 x3 x4 x5 x6 b h r k)

/-- One numerator in the reference. -/
theorem exp_apply (x0 : (⟨S4x16x1024x64, .f32⟩ : BufTy).Contents (Elt Ideal)) (x1 : (⟨S4x16x64x1024, .f32⟩ : BufTy).Contents (Elt Ideal))
    (x3 : (⟨S4x16x1024x1024, .f32⟩ : BufTy).Contents (Elt Ideal)) (x4 : (⟨S1x1024x1024, .f32⟩ : BufTy).Contents (Elt Ideal))
    (x5 : (⟨S4x1024, .i1⟩ : BufTy).Contents (Elt Ideal)) (x6 : (⟨S_, .f32⟩ : BufTy).Contents (Elt Ideal))
    (b : Fin 4) (h : Fin 16) (r : Fin 1024) (j : Fin 1024) :
    val_main_v15 (F := Ideal) x0 x1 x3 x4 x5 x6 (ix4 b h r j) = rowExp (score4 x0 x1 x3 x4 x5 x6 b h r) j := by
  have e : idx_main_v12 (idx_main_v13 (ix4 b h r j)) = ix3 b h r :=
    funext fun a => Fin.ext (by match a with | ⟨0, _⟩ => rfl | ⟨1, _⟩ => rfl | ⟨2, _⟩ => rfl)
  rw [val_main_v15_apply, val_main_v14_apply, val_main_v13_apply, val_main_v12_apply, e, max_apply, score_apply]
  rfl

/-- One row's sum of numerators in the reference. -/
theorem sum_apply (x0 : (⟨S4x16x1024x64, .f32⟩ : BufTy).Contents (Elt Ideal)) (x1 : (⟨S4x16x64x1024, .f32⟩ : BufTy).Contents (Elt Ideal))
    (x3 : (⟨S4x16x1024x1024, .f32⟩ : BufTy).Contents (Elt Ideal)) (x4 : (⟨S1x1024x1024, .f32⟩ : BufTy).Contents (Elt Ideal))
    (x5 : (⟨S4x1024, .i1⟩ : BufTy).Contents (Elt Ideal)) (x6 : (⟨S_, .f32⟩ : BufTy).Contents (Elt Ideal))
    (b : Fin 4) (h : Fin 16) (r : Fin 1024) :
    val_main_v16 (F := Ideal) x0 x1 x3 x4 x5 x6 (ix3 b h r) = ∑ k : Fin 1024, rowExp (score4 x0 x1 x3 x4 x5 x6 b h r) k := by
  rw [val_main_v16_apply, val_main_cst_2_apply]
  refine Eq.trans (congrArg (fun x : EReal => x + _) Ideal.ofBits_zero_f32) ?_
  rw [zero_add]
  refine Finset.sum_congr rfl fun k _ => ?_
  have e : idx_main_v16 (ix3 b h r) k = ix4 b h r k :=
    funext fun a => Fin.ext (by match a with | ⟨0, _⟩ => rfl | ⟨1, _⟩ => rfl | ⟨2, _⟩ => rfl | ⟨3, _⟩ => rfl)
  rw [e]
  exact exp_apply x0 x1 x3 x4 x5 x6 b h r k

/-- One entry of the reference's weights. -/
theorem weights_apply (x0 : (⟨S4x16x1024x64, .f32⟩ : BufTy).Contents (Elt Ideal)) (x1 : (⟨S4x16x64x1024, .f32⟩ : BufTy).Contents (Elt Ideal))
    (x3 : (⟨S4x16x1024x1024, .f32⟩ : BufTy).Contents (Elt Ideal)) (x4 : (⟨S1x1024x1024, .f32⟩ : BufTy).Contents (Elt Ideal))
    (x5 : (⟨S4x1024, .i1⟩ : BufTy).Contents (Elt Ideal)) (x6 : (⟨S_, .f32⟩ : BufTy).Contents (Elt Ideal))
    (b : Fin 4) (h : Fin 16) (r : Fin 1024) (j : Fin 1024) :
    val_main_v19 (F := Ideal) x0 x1 x3 x4 x5 x6 (ix4 b h r j) = softmaxRow (score4 x0 x1 x3 x4 x5 x6 b h r) j := by
  have e : idx_main_v17 (idx_main_v18 (ix4 b h r j)) = ix3 b h r :=
    funext fun a => Fin.ext (by match a with | ⟨0, _⟩ => rfl | ⟨1, _⟩ => rfl | ⟨2, _⟩ => rfl)
  rw [val_main_v19_apply, val_main_v18_apply, val_main_v17_apply, e, sum_apply, exp_apply]
  rfl

/-- One entry of the reference's output. -/
theorem out_apply (x0 : (⟨S4x16x1024x64, .f32⟩ : BufTy).Contents (Elt Ideal)) (x1 : (⟨S4x16x64x1024, .f32⟩ : BufTy).Contents (Elt Ideal))
    (x3 : (⟨S4x16x1024x1024, .f32⟩ : BufTy).Contents (Elt Ideal)) (x4 : (⟨S1x1024x1024, .f32⟩ : BufTy).Contents (Elt Ideal))
    (x5 : (⟨S4x1024, .i1⟩ : BufTy).Contents (Elt Ideal)) (x6 : (⟨S_, .f32⟩ : BufTy).Contents (Elt Ideal))
    (x2 : (⟨S4x16x1024x64, .f32⟩ : BufTy).Contents (Elt Ideal)) (b : Fin 4) (h : Fin 16) (r : Fin 1024) (d : Fin 64) :
    val_main_v20 (F := Ideal) x0 x1 x2 x3 x4 x5 x6 (ix4 b h r d)
      = weighted (softmaxRow (score4 x0 x1 x3 x4 x5 x6 b h r)) (fun k : Fin 1024 => x2 (ix4 b h k d)) := by
  rw [val_main_v20_apply]
  unfold weighted
  refine Finset.sum_congr rfl fun k _ => ?_
  have el : lidx_main_v20 (ix4 b h r d) k = ix4 b h r k :=
    funext fun a => Fin.ext (by match a with | ⟨0, _⟩ => rfl | ⟨1, _⟩ => rfl | ⟨2, _⟩ => rfl | ⟨3, _⟩ => rfl)
  have er : ridx_main_v20 (ix4 b h r d) k = ix4 b h k d :=
    funext fun a => Fin.ext (by match a with | ⟨0, _⟩ => rfl | ⟨1, _⟩ => rfl | ⟨2, _⟩ => rfl | ⟨3, _⟩ => rfl)
  rw [el, er, weights_apply]

/-- The reference's scores are the arguments' scores. -/
theorem scores_eq (x0 : (⟨S4x16x1024x64, .f32⟩ : BufTy).Contents (Elt Ideal)) (x1 : (⟨S4x16x64x1024, .f32⟩ : BufTy).Contents (Elt Ideal))
    (x3 : (⟨S4x16x1024x1024, .f32⟩ : BufTy).Contents (Elt Ideal)) (x4 : (⟨S1x1024x1024, .f32⟩ : BufTy).Contents (Elt Ideal))
    (x5 : (⟨S4x1024, .i1⟩ : BufTy).Contents (Elt Ideal)) (x6 : (⟨S_, .f32⟩ : BufTy).Contents (Elt Ideal)) :
    val_main_v8 (F := Ideal) x0 x1 x3 x4 x5 x6 = scores4 x0 x1 x3 x4 x5 x6 := by
  funext i
  obtain ⟨b, h, r, j, rfl⟩ : ∃ (b : Fin 4) (h : Fin 16) (r : Fin 1024) (j : Fin 1024), i = ix4 b h r j := ⟨i 0, i 1, i 2, i 3, eq_ix4 i⟩
  exact score_apply x0 x1 x3 x4 x5 x6 b h r j

/-- The reference's weights are the arguments' weights. -/
theorem weights_eq (x0 : (⟨S4x16x1024x64, .f32⟩ : BufTy).Contents (Elt Ideal)) (x1 : (⟨S4x16x64x1024, .f32⟩ : BufTy).Contents (Elt Ideal))
    (x3 : (⟨S4x16x1024x1024, .f32⟩ : BufTy).Contents (Elt Ideal)) (x4 : (⟨S1x1024x1024, .f32⟩ : BufTy).Contents (Elt Ideal))
    (x5 : (⟨S4x1024, .i1⟩ : BufTy).Contents (Elt Ideal)) (x6 : (⟨S_, .f32⟩ : BufTy).Contents (Elt Ideal)) :
    val_main_v19 (F := Ideal) x0 x1 x3 x4 x5 x6 = weights4 x0 x1 x3 x4 x5 x6 := by
  funext i
  obtain ⟨b, h, r, j, rfl⟩ : ∃ (b : Fin 4) (h : Fin 16) (r : Fin 1024) (j : Fin 1024), i = ix4 b h r j := ⟨i 0, i 1, i 2, i 3, eq_ix4 i⟩
  exact weights_apply x0 x1 x3 x4 x5 x6 b h r j

/-- The reference's output is the arguments' output. -/
theorem out_eq (x0 : (⟨S4x16x1024x64, .f32⟩ : BufTy).Contents (Elt Ideal)) (x1 : (⟨S4x16x64x1024, .f32⟩ : BufTy).Contents (Elt Ideal))
    (x3 : (⟨S4x16x1024x1024, .f32⟩ : BufTy).Contents (Elt Ideal)) (x4 : (⟨S1x1024x1024, .f32⟩ : BufTy).Contents (Elt Ideal))
    (x5 : (⟨S4x1024, .i1⟩ : BufTy).Contents (Elt Ideal)) (x6 : (⟨S_, .f32⟩ : BufTy).Contents (Elt Ideal))
    (x2 : (⟨S4x16x1024x64, .f32⟩ : BufTy).Contents (Elt Ideal)) :
    val_main_v20 (F := Ideal) x0 x1 x2 x3 x4 x5 x6 = out4 x0 x1 x2 x3 x4 x5 x6 := by
  funext i
  obtain ⟨b, h, r, d, rfl⟩ : ∃ (b : Fin 4) (h : Fin 16) (r : Fin 1024) (d : Fin 64), i = ix4 b h r d := ⟨i 0, i 1, i 2, i 3, eq_ix4 i⟩
  exact out_apply x0 x1 x3 x4 x5 x6 x2 b h r d

end Cert.ReferenceIdeal.Results

end
-- ==== Proof.lean ====
/-
  Scaled-dot-product attention with a carried-over score, an additive mask and a key-padding mask: a tiled kernel against
  its array-language reference, on the extended reals.

  Both programs return the output, the weights and the scores of every (batch, head). The kernel works on (batch·head)-major
  arrays, one block of 512 query rows at a time, and masks padded keys by ADDING a bias that is −∞ on them; the reference
  works on the four-dimensional arrays and REPLACES the scores of padded keys by −∞. On the extended reals x + (−∞) = −∞ for
  every x, so the two scores agree with no assumption on the inputs; the softmax (row maximum from −∞, exponentials, row
  sum, quotient) and the product with the values are then the same terms of equal scores, and the order of the two matrix
  products' sums is the same on both sides. The precondition is not used by the value claim.

  The kernel's side: what each grid point leaves in its three output blocks (the body's terms read entry by entry), the
  blocks as restrictions of whole-array functions of the launched arrays, the launched arrays as the arguments re-laid, and
  the results as the output arrays re-laid back. The reference's side: its operations read one at a time at an entry. The
  two meet in the whole-array functions out4, weights4 and scores4 of the arguments.
-/
import proofs.«101433_j455266533973_2_alg».proof.Defs
import proofs.«101433_j455266533973_2_alg».proof.Proof.Gen.Kernel
import proofs.«101433_j455266533973_2_alg».proof.Proof.Gen.Kernel.Frame
import proofs.«101433_j455266533973_2_alg».proof.Proof.Gen.KernelIdeal
import proofs.«101433_j455266533973_2_alg».proof.Proof.Gen.KernelIdeal.Frame
import proofs.«101433_j455266533973_2_alg».proof.Proof.Gen.ReferenceIdeal
import proofs.«101433_j455266533973_2_alg».proof.Proof.Gen.Pre_finite_inputs
import proofs.«101433_j455266533973_2_alg».proof.Proof.Gen.ReferenceIdeal.Run
import proofs.«101433_j455266533973_2_alg».proof.Proof.Gen.ReferenceIdeal.Read
import proofs.«101433_j455266533973_2_alg».proof.Proof.KernelRun
import proofs.«101433_j455266533973_2_alg».proof.Proof.RefValue
import Idealize.ShloMosaic.Adequacy
import Idealize.ShloMosaic.Init

noncomputable section

namespace Cert.Proof

open Idealize.ShloMosaic Idealize.ShloMosaic.TcCoe Idealize.SL.Sem Cert.Attention

/-- The kernel as printed runs and leaves its arguments unchanged. -/
theorem frame_kernel : Cert.frame_Kernel := fun m ρ _ => Cert.Kernel.Gen.frame m ρ

/-- The idealized kernel runs and leaves its arguments unchanged. -/
theorem frame_ideal : Cert.frame_KernelIdeal := fun m ρ _ => Cert.KernelIdeal.Gen.frame m ρ

/-- The idealized reference runs and leaves its arguments unchanged: its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories agreeing on the arguments both programs end with the output, the weights and the scores at the same
    whole-array functions of the arguments. -/
theorem algebraic : Cert.algebraic_KernelIdeal_ReferenceIdeal := by
  intro m ρ m' ρ' _ hagree
  refine ⟨fun c => out4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => weights4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => scores4 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2.1.trans ?_, (h c).2.2.2⟩
  · rw [Cert.ReferenceIdeal.Read.val_main_v20_eq, Cert.ReferenceIdeal.Results.out_eq, a0, a1, a2, a3, a4, a5, a6]
  · rw [Cert.ReferenceIdeal.Read.val_main_v19_eq, Cert.ReferenceIdeal.Results.weights_eq, a0, a1, a3, a4, a5, a6]
  · refine (Cert.ReferenceIdeal.Read.val_main_v8_eq (F := Ideal) _ _ _ _ _ _).trans ?_
    rw [Cert.ReferenceIdeal.Results.scores_eq, a0, a1, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
